-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S2000x128 : Shape := ⟨2, ![2000, 128]⟩

abbrev nBuf : Space → Nat
  | .hbm => 41
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S1x128, .f32⟩
  | .hbm, ⟨26, _⟩ => ⟨S1x128, .f32⟩
  | .hbm, ⟨27, _⟩ => ⟨S50000x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_cst : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_cst_1 : Ref sig .tc := ⟨.hbm, 56, rfl⟩
abbrev main_call1_v8 : Ref sig .tc := ⟨.hbm, 57, rfl⟩
abbrev main_call1_cst_2 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_cst_3 : Ref sig .tc := ⟨.hbm, 62, rfl⟩
abbrev main_call1_v12 : Ref sig .tc := ⟨.hbm, 63, rfl⟩
abbrev main_call1_cst_4 : Ref sig .tc := ⟨.hbm, 64, rfl⟩
abbrev main_call1_call0_v0 : Ref sig .tc := ⟨.hbm, 65, rfl⟩
abbrev main_call1_call0_v1 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_5 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_call2_cst : Ref sig .tc := ⟨.hbm, 84, rfl⟩
abbrev main_call2_v0 : Ref sig .tc := ⟨.hbm, 85, rfl⟩
abbrev main_v45 : Ref sig .tc := ⟨.hbm, 86, rfl⟩
abbrev main_v46 : Ref sig .tc := ⟨.hbm, 87, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its result named.

  Every weakly fair execution of the program terminates without a fault; in the final state the result array holds
  what the last boundary of the run's segments leaves there (the second region's output after all its write-backs),
  and the eight argument arrays are as launched. The segments, the boundaries' contents and the per-region data are
  the frame's; only the final reading adds the result buffer to the arguments.
-/
import proofs.«159342_j43061342110476_1_alg».proof.Proof.Gen.KernelIdeal.Frame

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result array at the last boundary's contents, the arguments unchanged. -/
theorem run_result : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.RegionPieces.lean ====
/-
  What one grid point of the first kernel leaves in its three output buffers, as values of the blocks it loaded.

  The body stores the tile of hidden features once, and each of the two running column sums once (after reading the
  sum's buffer back). At the first grid point it first stores a row of zeros into each running sum, so the value it
  reads back there is that zero row; at every later point it reads what the point before left. Each output buffer is
  therefore one whole-buffer store of a pure function of the six input blocks and, for the sums, of the buffer's
  earlier contents:
    the hidden tile     k0_pay4 of the six input blocks                         (both cases)
    the running sum     k0_pay5 of the inputs and the sum so far  (the zero row at the first point)
    the running squares k0_pay1 of the hidden tile and the squares so far (the zero row at the first point).
-/
import proofs.«159342_j43061342110476_1_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)
namespace Cert.KernelIdeal.Pieces
open Cert.KernelIdeal Cert.KernelIdeal.Gen
variable {F : FTy → Type} [FloatOps F]

/-- The zero offsets of a whole-buffer access. -/
theorem hz : (![0, 0] : Fin 2 → Nat) = fun _ => 0 := funext fun a => by fin_cases a <;> rfl

/-- First point: the hidden tile. -/
theorem first_hidden (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole) (hc : cond0_0 i) (x0 : Vec F S2000x128 .f32) (x1 : Vec F S2000x128 .f32) (x2 : Vec F S128x128 .f32) (x3 : Vec F S1x128 .f32) (x4 : Vec F S128x128 .f32) (x5 : Vec F S1x128 .f32) :
    out0_A_6 c i a1 h1 a2 h2 a3 h3 a4 h4 a5 h5 a6 h6 a7 h7 a8 h8 a9 h9 hc x0 x1 x2 x3 x4 x5 = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  rw [View.canon_unit_zero hz]
  simp only [View.readAt_eq_ld, h1.read_unread, h2.read_unread, h3.read_unread, h4.read_unread, h5.read_unread, h6.read_unread, h8.read_unread, h9.read_unread, View.ld_unit_zero (S := S2000x128) hz, View.ld_unit_zero (S := S128x128) hz, View.ld_unit_zero (S := S1x128) hz]

/-- First point: the running sum starts from the zero row just stored. -/
theorem first_sum (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole) (hc : cond0_0 i) (x0 : Vec F S2000x128 .f32) (x1 : Vec F S2000x128 .f32) (x2 : Vec F S128x128 .f32) (x3 : Vec F S1x128 .f32) (x4 : Vec F S128x128 .f32) (x5 : Vec F S1x128 .f32) :
    out0_A_7 c i a1 h1 a2 h2 a3 h3 a4 h4 a5 h5 a6 h6 a7 h7 a8 h8 a9 h9 hc x0 x1 x2 x3 x4 x5 = k0_pay5 x0 x1 x2 x3 x4 x5 k0_pay2 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz]
  simp only [View.readCov_unit_zero (S := S1x128) _ hz, View.readAt_eq_ld, h1.read_unread, h2.read_unread, h3.read_unread, h4.read_unread, h5.read_unread, h6.read_unread, h8.read_unread, h9.read_unread, View.ld_unit_zero (S := S2000x128) hz, View.ld_unit_zero (S := S128x128) hz, View.ld_unit_zero (S := S1x128) hz]

/-- First point: the running sum of squares starts from the zero row just stored. -/
theorem first_sumsq (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole) (hc : cond0_0 i) (x0 : Vec F S2000x128 .f32) (x1 : Vec F S2000x128 .f32) (x2 : Vec F S128x128 .f32) (x3 : Vec F S1x128 .f32) (x4 : Vec F S128x128 .f32) (x5 : Vec F S1x128 .f32) :
    out0_A_8 c i a1 h1 a2 h2 a3 h3 a4 h4 a5 h5 a6 h6 a7 h7 a8 h8 a9 h9 hc x0 x1 x2 x3 x4 x5 = k0_pay1 (k0_pay4 x0 x1 x2 x3 x4 x5) k0_pay3 := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz]
  simp only [View.readCov_unit_zero (S := S1x128) _ hz, View.readAt_eq_ld, h1.read_unread, h2.read_unread, h3.read_unread, h4.read_unread, h5.read_unread, h6.read_unread, h8.read_unread, h9.read_unread, View.ld_unit_zero (S := S2000x128) hz, View.ld_unit_zero (S := S128x128) hz, View.ld_unit_zero (S := S1x128) hz]

/-- Later points: the hidden tile. -/
theorem later_hidden (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S2000x128 .f32) (x1 : Vec F S2000x128 .f32) (x2 : Vec F S128x128 .f32) (x3 : Vec F S1x128 .f32) (x4 : Vec F S128x128 .f32) (x5 : Vec F S1x128 .f32) (xo7 xo8 : Vec F S1x128 .f32) :
    out0_B_6 c i a1 h1 a2 h2 a3 h3 a4 h4 a5 h5 a6 h6 a7 h7 a8 h8 a9 h9 hc x0 x1 x2 x3 x4 x5 xo7 xo8 = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  rw [View.canon_unit_zero hz]
  simp only [View.readAt_eq_ld, h1.read_unread, h2.read_unread, h3.read_unread, h4.read_unread, h5.read_unread, h6.read_unread, h8.read_unread, h9.read_unread, View.ld_unit_zero (S := S2000x128) hz, View.ld_unit_zero (S := S128x128) hz, View.ld_unit_zero (S := S1x128) hz]

/-- Later points: the running sum continues from what the point before left. -/
theorem later_sum (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S2000x128 .f32) (x1 : Vec F S2000x128 .f32) (x2 : Vec F S128x128 .f32) (x3 : Vec F S1x128 .f32) (x4 : Vec F S128x128 .f32) (x5 : Vec F S1x128 .f32) (xo7 xo8 : Vec F S1x128 .f32) :
    out0_B_7 c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S2000x128) hz, View.ld_unit_zero (S := S128x128) hz, View.ld_unit_zero (S := S1x128) hz]

/-- Later points: the running sum of squares continues from what the point before left. -/
theorem later_sumsq (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S2000x128 .f32) (x1 : Vec F S2000x128 .f32) (x2 : Vec F S128x128 .f32) (x3 : Vec F S1x128 .f32) (x4 : Vec F S128x128 .f32) (x5 : Vec F S1x128 .f32) (xo7 xo8 : Vec F S1x128 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S2000x128) hz, View.ld_unit_zero (S := S128x128) hz, View.ld_unit_zero (S := S1x128) hz]

end Cert.KernelIdeal.Pieces

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«159342_j43061342110476_1_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«159342_j43061342110476_1_alg».proof.Proof.LibMatmulPlain
import proofs.«159342_j43061342110476_1_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.Spec.lean ====
/-
  One graph layer with batch normalization, stated on the extended reals for any number m of rows (nodes) and 128
  feature columns.

  For node features x, neighbour sums agg, two weights and two biases:
    combine  is  one * x + agg, entry by entry;
    hidden   is  two dense layers with a rectifier between them, applied to combine: each row of hidden depends on
             that row of x and agg only.
  For a matrix h of m rows and a divisor nn:
    colSum h q           the sum of column q over all rows;
    mean nn h q          colSum h q / nn;
    varOfMoments nn h q      (colSum of the squares at q) / nn - mean * mean        (second moment minus squared mean)
    varOfDeviations nn h q   (sum over rows of (h - mean) * (h - mean)) / nn          (mean squared deviation)
  The two variances are different expressions; they agree when every entry of the column is a real number and nn is
  the number of rows (Moments.lean).
    output eps x h mu var gamma beta   is   x + max(((h - mu) * rsqrt(var + eps)) * gamma + beta, 0), entry by entry,
  with mu, var, gamma, beta read at the entry's column.
    layer varForm x agg ...            is   output of hidden, its mean, and its variance taken in the form varForm;
  one, rows and eps are the three f32 words both programs use (1.0, 50000.0 and the added epsilon).
-/
import Idealize.ShloMosaic.PureOps.Ideal
import Idealize.ShloMosaic.Lib.ValueIdx
import proofs.«159342_j43061342110476_1_alg».proof.Proof.LibDenseLayers

noncomputable section

namespace Cert.GraphNorm

open Idealize.ShloMosaic Idealize.ShloMosaic.ValueIdx Cert.Layers

variable {m : Nat}

/-- A node's own features scaled by `one`, plus the sum over its in-neighbours. -/
def combine (one : EReal) (x agg : Mat m 128) : Mat m 128 := fun i => one * x i + agg i

/-- Two dense layers with a rectifier between them, on the combined features. -/
def hidden (one : EReal) (x agg : Mat m 128) (w1 : Mat 128 128) (b1 : Row 128) (w2 : Mat 128 128) (b2 : Row 128) :
    Mat m 128 :=
  dense (rect (dense (combine one x agg) w1 b1)) w2 b2

/-- Entry by entry the square. -/
def squares (h : Mat m 128) : Mat m 128 := fun i => h i * h i

/-- The sum of column q over all rows. -/
def colSum (h : Mat m 128) (q : Fin 128) : EReal := ∑ p : Fin m, h (ix2 p q)

/-- The column's sum divided by nn. -/
def mean (nn : EReal) (h : Mat m 128) (q : Fin 128) : EReal := Ideal.div (colSum h q) nn

/-- The second moment minus the squared mean. -/
def varOfMoments (nn : EReal) (h : Mat m 128) (q : Fin 128) : EReal :=
  Ideal.div (colSum (squares h) q) nn - mean nn h q * mean nn h q

/-- The mean squared deviation from the mean. -/
def varOfDeviations (nn : EReal) (h : Mat m 128) (q : Fin 128) : EReal :=
  Ideal.div (∑ p : Fin m, (h (ix2 p q) - mean nn h q) * (h (ix2 p q) - mean nn h q)) nn

/-- Normalize each column, scale and shift it, rectify, and add the node's own features back. -/
def output (eps : EReal) (x h : Mat m 128) (mu var : Fin 128 → EReal) (gamma beta : Row 128) : Mat m 128 :=
  fun i => x i + max (((h i - mu (i 1)) * Ideal.rsqrt (var (i 1) + eps)) * gamma (ix1 (i 1)) + beta (ix1 (i 1)))
    (Ideal.ofBits .f32 0x00000000#32)

/-- The word both programs scale a node's own features by. -/
abbrev one : EReal := Ideal.ofBits .f32 0x3F800000#32
/-- The word both programs divide the column sums by. -/
abbrev rows : EReal := Ideal.ofBits .f32 0x47435000#32
/-- The word both programs add to the variance. -/
abbrev eps : EReal := Ideal.ofBits .f32 0x3727C5AC#32

/-- Every entry is a real number. -/
def IsReal {s : Shape} (a : s.Idx → EReal) : Prop := ∀ i, ∃ r : ℝ, a i = (r : EReal)

/-- The whole layer, with the variance taken in the form `varForm`. -/
def layer (varForm : EReal → Mat m 128 → Fin 128 → EReal) (x agg : Mat m 128) (w1 : Mat 128 128) (b1 : Row 128)
    (w2 : Mat 128 128) (b2 : Row 128) (gamma beta : Row 128) : Mat m 128 :=
  output eps x (hidden one x agg w1 b1 w2 b2) (mean rows (hidden one x agg w1 b1 w2 b2))
    (varForm rows (hidden one x agg w1 b1 w2 b2)) gamma beta

theorem combine_apply (one : EReal) (x agg : Mat m 128) (p : Fin m) (q : Fin 128) :
    combine one x agg (ix2 p q) = one * x (ix2 p q) + agg (ix2 p q) := rfl

theorem dense_apply {k n : Nat} (a : Mat m k) (w : Mat k n) (b : Row n) (p : Fin m) (q : Fin n) :
    dense a w b (ix2 p q) = (∑ j : Fin k, a (ix2 p j) * w (ix2 j q)) + b (ix1 q) := rfl

theorem rect_apply {s : Shape} (a : s.Idx → EReal) (i : s.Idx) :
    rect a i = max (a i) (Ideal.ofBits .f32 0x00000000#32) := rfl

theorem hidden_apply (one : EReal) (x agg : Mat m 128) (w1 : Mat 128 128) (b1 : Row 128) (w2 : Mat 128 128)
    (b2 : Row 128) (p : Fin m) (q : Fin 128) :
    hidden one x agg w1 b1 w2 b2 (ix2 p q)
      = (∑ j : Fin 128, max ((∑ l : Fin 128, (one * x (ix2 p l) + agg (ix2 p l)) * w1 (ix2 l j)) + b1 (ix1 j))
            (Ideal.ofBits .f32 0x00000000#32) * w2 (ix2 j q)) + b2 (ix1 q) := rfl

/-- A row of hidden depends on that row of x and of agg only. -/
theorem hidden_rows {m' : Nat} (one : EReal) (x agg : Mat m 128) (x' agg' : Mat m' 128) (w1 : Mat 128 128)
    (b1 : Row 128) (w2 : Mat 128 128) (b2 : Row 128) (p : Fin m) (p' : Fin m')
    (hx : ∀ l : Fin 128, x (ix2 p l) = x' (ix2 p' l)) (ha : ∀ l : Fin 128, agg (ix2 p l) = agg' (ix2 p' l))
    (q : Fin 128) :
    hidden one x agg w1 b1 w2 b2 (ix2 p q) = hidden one x' agg' w1 b1 w2 b2 (ix2 p' q) := by
  rw [hidden_apply, hidden_apply]
  simp only [hx, ha]

theorem output_apply (eps : EReal) (x h : Mat m 128) (mu var : Fin 128 → EReal) (gamma beta : Row 128)
    (p : Fin m) (q : Fin 128) :
    output eps x h mu var gamma beta (ix2 p q)
      = x (ix2 p q) + max (((h (ix2 p q) - mu q) * Ideal.rsqrt (var q + eps)) * gamma (ix1 q) + beta (ix1 q))
          (Ideal.ofBits .f32 0x00000000#32) := rfl

end Cert.GraphNorm

end
-- ==== Proof.LibColumnSums.lean ====
/-
  Column sums kept as a row, read at an index.

  A reduction over the FIRST axis of an [a, b] array gives a [b] vector; reshaped to a [1, b] row, its entry (0, q) is,
  on the extended reals, the sum over the a rows of column q. For any extents and float format.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib.ColumnSums

open Idealize.ShloMosaic Idealize.ShloMosaic.ValueIdx

/-- The sums of an [a, b] array's columns, on the extended reals, kept as a row: entry (0, q) of the row is the sum
    over the `a` coordinates of column `q`. -/
theorem sumRow_apply {a b : Nat} {φ : FTy} (v : FVec Ideal ⟨2, ![a, b]⟩ φ) (acc : BitVec φ.bits)
    (hr : (⟨2, ![a, b]⟩ : Shape).Reduces [0] ⟨1, ![b]⟩) (hφ : FKind.Formats φ) (hacc : acc = FKind.add.neutral φ hφ)
    (hc : (⟨1, ![b]⟩ : Shape).ShapeCasts ⟨2, ![1, b]⟩) (q : Fin b) :
    shapeCast ⟨2, ![1, b]⟩ (multiReduction .add [0] ⟨1, ![b]⟩ v acc hr hφ hacc) hc (ix2 (0 : Fin 1) q)
      = ∑ k : Fin a, v (ix2 k q) := by
  refine (shapeCast_a_1a_apply _ hc 0 q).trans ?_
  refine (Ideal.multiReduction_add_single v acc hr hφ hacc (ix1 q)).trans ?_
  refine Finset.sum_congr rfl fun k _ => ?_
  exact congrArg v (funext fun d => Fin.ext (by match d with | ⟨0, _⟩ => rfl | ⟨1, _⟩ => rfl))

end Cert.Lib.ColumnSums

end
-- ==== Proof.TileValues.lean ====
/-
  The first kernel's three payloads as values on the extended reals.

  For the six blocks a grid point loads — 2000 rows of the node features and of the neighbour sums, the two weights,
  and the two biases as [1, 128] rows — the stored tile is `hidden` of them (two dense layers with a rectifier
  between, the casts to a narrower float format being the identity); the running column sum after the point is the sum
  before it plus the tile's column sums, and the running sum of squares likewise with the squares. The zero row a
  running sum starts from has value 0.
-/
import proofs.«159342_j43061342110476_1_alg».proof.Proof.Gen.KernelIdeal.Skeleton
import proofs.«159342_j43061342110476_1_alg».proof.Proof.Spec
import proofs.«159342_j43061342110476_1_alg».proof.Proof.LibColumnSums
import Idealize.ShloMosaic.Lib.ValueLayout
import Idealize.ShloMosaic.Lib.Pipeline.Value

noncomputable section
open Idealize.ShloMosaic Idealize.ShloMosaic.TcCoe Idealize.ShloMosaic.ValueIdx
namespace Cert.KernelIdeal.Tile
open Cert.KernelIdeal Cert.KernelIdeal.Gen Cert.Layers Cert.GraphNorm Cert.LibMatmulPlain

/-- A [1, 128] row matrix as a vector. -/
def rowOf (r : Mat 1 128) : Row 128 := fun i => r (ix2 (0 : Fin 1) (i 0))

theorem rowOf_apply (r : Mat 1 128) (q : Fin 128) : rowOf r (ix1 q) = r (ix2 (0 : Fin 1) q) := rfl

/-- One dense layer as the tile spells it: both operands cast to the narrower format, the product taken into a zero
    accumulator, the bias row repeated down the 2000 rows. -/
theorem tile_dense (u : FVec Ideal S2000x128 .f32) (w : FVec Ideal S128x128 .f32) (b : FVec Ideal S1x128 .f32) :
    addf (matmul dot_S2000x128_S128x128_S2000x128_1_0_0_1_n_n none (truncf .bf16 u Gen.bitsLt_bf16_f32)
        (truncf .bf16 w Gen.bitsLt_bf16_f32) (constant S2000x128 .f32 0x00000000#32))
      (broadcastTo S2000x128 (shapeCast S1x128 b Gen.shapeCasts_S1x128_S1x128) Gen.broadcasts_S1x128_S2000x128)
    = dense u w (rowOf b) := by
  funext i
  obtain ⟨p, q, rfl⟩ : ∃ (p : Fin 2000) (q : Fin 128), i = ix2 p q := ⟨i 0, i 1, eq_ix2 i⟩
  rw [dense_apply]
  show FloatOps.matmul (plainDims 2000 128 128 Gen.dot_S2000x128_S128x128_S2000x128_1_0_0_1_n_n_wf) none
        (truncf .bf16 u Gen.bitsLt_bf16_f32) (truncf .bf16 w Gen.bitsLt_bf16_f32) (constant ⟨2, ![2000, 128]⟩ .f32 0x00000000#32) (ix2 p q)
      + broadcastTo ⟨2, ![2000, 128]⟩ (shapeCast ⟨2, ![1, 128]⟩ b Gen.shapeCasts_S1x128_S1x128) Gen.broadcasts_S1x128_S2000x128 (ix2 p q) = _
  rw [matmul_zero_apply _ none _ _ p q, broadcastTo_1b_ab_apply, shapeCast_self]
  rfl

/-- The stored tile is `hidden` of the six blocks. -/
theorem hidden_tile (x0 x1 : Vec Ideal S2000x128 .f32) (x2 : Vec Ideal S128x128 .f32) (x3 : Vec Ideal S1x128 .f32)
    (x4 : Vec Ideal S128x128 .f32) (x5 : Vec Ideal S1x128 .f32) :
    k0_pay4 (F := Ideal) x0 x1 x2 x3 x4 x5 = hidden one x0 x1 x2 (rowOf x3) x4 (rowOf x5) := by
  unfold k0_pay4
  dsimp only
  rw [shapeCast_self x1, tile_dense, tile_dense]
  rfl

/-- The running column sum after a point: the sum before it plus the tile's column sums. -/
theorem sum_tile (x0 x1 : Vec Ideal S2000x128 .f32) (x2 : Vec Ideal S128x128 .f32) (x3 : Vec Ideal S1x128 .f32)
    (x4 : Vec Ideal S128x128 .f32) (x5 : Vec Ideal S1x128 .f32) (acc : Vec Ideal S1x128 .f32) (q : Fin 128) :
    k0_pay5 (F := Ideal) x0 x1 x2 x3 x4 x5 acc (ix2 (0 : Fin 1) q)
      = acc (ix2 (0 : Fin 1) q) + ∑ r : Fin 2000, k0_pay4 (F := Ideal) x0 x1 x2 x3 x4 x5 (ix2 r q) := by
  unfold k0_pay5
  dsimp only
  rw [shapeCast_self acc]
  exact congrArg (acc (ix2 (0 : Fin 1) q) + ·)
    (Cert.Lib.ColumnSums.sumRow_apply (a := 2000) (b := 128) (k0_pay4 (F := Ideal) x0 x1 x2 x3 x4 x5) 0x00000000#32
      Gen.reduces_S2000x128_S128 (.inl rfl) rfl Gen.shapeCasts_S128_S1x128 q)

/-- The running column sum of squares after a point: the sum before it plus the column sums of the tile's squares. -/
theorem sumsq_tile (v : FVec Ideal S2000x128 .f32) (acc : Vec Ideal S1x128 .f32) (q : Fin 128) :
    k0_pay1 (F := Ideal) v acc (ix2 (0 : Fin 1) q)
      = acc (ix2 (0 : Fin 1) q) + ∑ r : Fin 2000, v (ix2 r q) * v (ix2 r q) := by
  unfold k0_pay1
  dsimp only
  rw [shapeCast_self acc]
  exact congrArg (acc (ix2 (0 : Fin 1) q) + ·)
    (Cert.Lib.ColumnSums.sumRow_apply (a := 2000) (b := 128) (mulf v v) 0x00000000#32
      Gen.reduces_S2000x128_S128 (.inl rfl) rfl Gen.shapeCasts_S128_S1x128 q)

/-- The zero row the running sum starts from. -/
theorem zero_row_sum (q : Fin 128) : k0_pay2 (F := Ideal) (ix2 (0 : Fin 1) q) = 0 :=
  Ideal.ofBits_zero_f32

/-- The zero row the running sum of squares starts from. -/
theorem zero_row_sumsq (q : Fin 128) : k0_pay3 (F := Ideal) (ix2 (0 : Fin 1) q) = 0 :=
  Ideal.ofBits_zero_f32

end Cert.KernelIdeal.Tile
end
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.BlockSums.lean ====
/-
  Column sums of a 50000-row matrix taken 2000 rows at a time.

  rowAt h p q is entry (p, q) of h for a row number p below 50000 (and 0 beyond); blockSum h t q is the sum of column q
  over the 2000 rows of block t; prefixSum h n q adds the blocks 0 .. n. The 25 blocks are exactly the 50000 rows, each
  once, so the prefix sum through block 24 is the whole column sum — only commutativity and associativity of the
  addition on the extended reals are used.
-/
import proofs.«159342_j43061342110476_1_alg».proof.Proof.Spec
import proofs.«159342_j43061342110476_1_alg».proof.Proof.LibSumBlocks

noncomputable section

open scoped BigOperators

namespace Cert.GraphNorm

open Idealize.ShloMosaic Idealize.ShloMosaic.ValueIdx Cert.Layers

/-- Entry (p, q) for a row number p, 0 beyond the last row. -/
def rowAt (h : Mat 50000 128) (p : ℕ) (q : Fin 128) : EReal := if hp : p < 50000 then h (ix2 ⟨p, hp⟩ q) else 0

/-- The sum of column q over the 2000 rows of block t. -/
def blockSum (h : Mat 50000 128) (t : ℕ) (q : Fin 128) : EReal := ∑ r : Fin 2000, rowAt h (t * 2000 + r.val) q

/-- The sum of column q over blocks 0 .. n. -/
def prefixSum (h : Mat 50000 128) (n : ℕ) (q : Fin 128) : EReal := ∑ t ∈ Finset.range (n + 1), blockSum h t q

theorem rowAt_of_lt (h : Mat 50000 128) (p : ℕ) (hp : p < 50000) (q : Fin 128) : rowAt h p q = h (ix2 ⟨p, hp⟩ q) :=
  dif_pos hp

theorem rowAt_squares (h : Mat 50000 128) (p : ℕ) (q : Fin 128) :
    rowAt (squares h) p q = rowAt h p q * rowAt h p q := by
  unfold rowAt
  by_cases hp : p < 50000
  · rw [dif_pos hp, dif_pos hp]; rfl
  · rw [dif_neg hp, dif_neg hp, mul_zero]

theorem prefixSum_zero (h : Mat 50000 128) (q : Fin 128) : prefixSum h 0 q = blockSum h 0 q := by
  unfold prefixSum
  rw [Finset.sum_range_one]

theorem prefixSum_succ (h : Mat 50000 128) (n : ℕ) (q : Fin 128) :
    prefixSum h (n + 1) q = prefixSum h n q + blockSum h (n + 1) q := by
  unfold prefixSum
  rw [Finset.sum_range_succ]

/-- The 25 blocks of 2000 rows are the 50000 rows. -/
theorem prefixSum_last (h : Mat 50000 128) (q : Fin 128) : prefixSum h 24 q = colSum h q := by
  unfold prefixSum blockSum colSum
  rw [Finset.sum_range (fun t => ∑ r : Fin 2000, rowAt h (t * 2000 + r.val) q)]
  refine ((Cert.LibSumBlocks.sum_blocks 25 2000 (fun p : Fin (25 * 2000) => rowAt h p.val q)).symm).trans ?_
  show ∑ p : Fin 50000, rowAt h p.val q = ∑ p : Fin 50000, h (ix2 p q)
  exact Finset.sum_congr rfl fun p _ => rowAt_of_lt h p.val p.isLt q

end Cert.GraphNorm

end
-- ==== Proof.Region0.lean ====
/-
  The first kernel region, read as values: what its three output arrays hold when it ends.

  The region visits 25 grid points; point t loads rows 2000 t .. 2000 t + 1999 of the node features and of the
  neighbour sums, and the whole weights and bias rows. By induction on the point: the tile it stores is those rows
  of the hidden matrix H of ALL nodes (a row of H depends on that row of the inputs only), the running column sum
  after point n is the sum of column q of H over blocks 0 .. n, and the running sum of squares is the same for the
  squares of H. The tile is written back at every point and the 25 tiles are the 50000 rows, so the first output
  array ends as H; the two running sums are written back after the last point only, so the second and third output
  arrays end as the column sums of H and of its squares.
-/
import proofs.«159342_j43061342110476_1_alg».proof.Proof.Gen.KernelIdeal.Frame
import proofs.«159342_j43061342110476_1_alg».proof.Proof.RegionPieces
import proofs.«159342_j43061342110476_1_alg».proof.Proof.TileValues
import proofs.«159342_j43061342110476_1_alg».proof.Proof.BlockSums
import Idealize.ShloMosaic.Lib.Pipeline.Value

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Region0
open Cert.KernelIdeal Cert.KernelIdeal.Gen Cert.Layers Cert.GraphNorm Cert.KernelIdeal.Tile

variable (V : (c : Dev nD) → (b : Ref sig .tc) → Buf (Elt Ideal) ((c : Thread nD τ).loc b))

/-- The hidden features of all 50000 nodes, from the arrays as the region finds them. -/
def H (c : Dev nD) : Mat 50000 128 :=
  hidden one (V c main_arg0) (V c main_v13) (V c main_arg2) (rowOf (V c main_v14)) (V c main_arg4) (rowOf (V c main_v15))

theorem hN : cfg0.N = 25 := N_0

/-- The row-blocked windows (node features, neighbour sums, the hidden output) are at block t at point t. -/
theorem idx_rows : ∀ t : Fin cfg0.N, win0_0.index t 0 = t.val ∧ win0_0.index t 1 = 0
    ∧ win0_1.index t 0 = t.val ∧ win0_1.index t 1 = 0 ∧ win0_6.index t 0 = t.val ∧ win0_6.index t 1 = 0 :=
  (by decide +kernel : ∀ t : Fin grid0.N, _)

/-- The other windows stay at block (0, 0). -/
theorem idx_fixed : ∀ t : Fin cfg0.N, win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0 :=
  (by decide +kernel : ∀ t : Fin grid0.N, _)

/-- Point t's block of the node features is rows 2000 t + r. -/
theorem blk_x (c : Dev nD) (t : Fin cfg0.N) (r : Fin 2000) (l : Fin 128) (hr : t.val * 2000 + r.val < 50000) :
    (iblk0 V c 0 t : Vec Ideal S2000x128 .f32) (ix2 r l) = (V c main_arg0 : Mat 50000 128) (ix2 ⟨t.val * 2000 + r.val, hr⟩ l) := by
  unfold iblk0
  rw [View.read_apply]
  show V c main_arg0 _ = V c main_arg0 _
  congr 1
  funext a
  apply Fin.ext
  match a with
  | ⟨0, _⟩ => show win0_0.index t 0 * 2000 + 1 * r.val = t.val * 2000 + r.val; rw [(idx_rows t).1]; omega
  | ⟨1, _⟩ => show win0_0.index t 1 * 128 + 1 * l.val = l.val; rw [(idx_rows t).2.1]; omega

/-- Point t's block of the neighbour sums is rows 2000 t + r. -/
theorem blk_agg (c : Dev nD) (t : Fin cfg0.N) (r : Fin 2000) (l : Fin 128) (hr : t.val * 2000 + r.val < 50000) :
    (iblk0 V c 1 t : Vec Ideal S2000x128 .f32) (ix2 r l) = (V c main_v13 : Mat 50000 128) (ix2 ⟨t.val * 2000 + r.val, hr⟩ l) := by
  unfold iblk0
  rw [View.read_apply]
  show V c main_v13 _ = V c main_v13 _
  congr 1
  funext a
  apply Fin.ext
  match a with
  | ⟨0, _⟩ => show win0_1.index t 0 * 2000 + 1 * r.val = t.val * 2000 + r.val; rw [(idx_rows t).2.2.1]; omega
  | ⟨1, _⟩ => show win0_1.index t 1 * 128 + 1 * l.val = l.val; rw [(idx_rows t).2.2.2.1]; omega

/-- The first weight's block is the whole array. -/
theorem blk_w1 (c : Dev nD) (t : Fin cfg0.N) : (iblk0 V c 2 t : Vec Ideal S128x128 .f32) = V c main_arg2 := by
  funext j
  unfold iblk0
  rw [View.read_apply]
  show V c main_arg2 _ = V c main_arg2 j
  congr 1
  funext a
  apply Fin.ext
  match a with
  | ⟨0, _⟩ => show win0_2.index t 0 * 128 + 1 * (j 0).val = (j 0).val; rw [(idx_fixed t).1]; omega
  | ⟨1, _⟩ => show win0_2.index t 1 * 128 + 1 * (j 1).val = (j 1).val; rw [(idx_fixed t).2.1]; omega

/-- The first bias row's block is the whole array. -/
theorem blk_b1 (c : Dev nD) (t : Fin cfg0.N) : (iblk0 V c 3 t : Vec Ideal S1x128 .f32) = V c main_v14 := by
  funext j
  unfold iblk0
  rw [View.read_apply]
  show V c main_v14 _ = V c main_v14 j
  congr 1
  funext a
  apply Fin.ext
  match a with
  | ⟨0, _⟩ => show win0_3.index t 0 * 1 + 1 * (j 0).val = (j 0).val; rw [(idx_fixed t).2.2.1]; omega
  | ⟨1, _⟩ => show win0_3.index t 1 * 128 + 1 * (j 1).val = (j 1).val; rw [(idx_fixed t).2.2.2.1]; omega

/-- The second weight's block is the whole array. -/
theorem blk_w2 (c : Dev nD) (t : Fin cfg0.N) : (iblk0 V c 4 t : Vec Ideal S128x128 .f32) = V c main_arg4 := by
  funext j
  unfold iblk0
  rw [View.read_apply]
  show V c main_arg4 _ = V c main_arg4 j
  congr 1
  funext a
  apply Fin.ext
  match a with
  | ⟨0, _⟩ => show win0_4.index t 0 * 128 + 1 * (j 0).val = (j 0).val; rw [(idx_fixed t).2.2.2.2.1]; omega
  | ⟨1, _⟩ => show win0_4.index t 1 * 128 + 1 * (j 1).val = (j 1).val; rw [(idx_fixed t).2.2.2.2.2.1]; omega

/-- The second bias row's block is the whole array. -/
theorem blk_b2 (c : Dev nD) (t : Fin cfg0.N) : (iblk0 V c 5 t : Vec Ideal S1x128 .f32) = V c main_v15 := by
  funext j
  unfold iblk0
  rw [View.read_apply]
  show V c main_v15 _ = V c main_v15 j
  congr 1
  funext a
  apply Fin.ext
  match a with
  | ⟨0, _⟩ => show win0_5.index t 0 * 1 + 1 * (j 0).val = (j 0).val; rw [(idx_fixed t).2.2.2.2.2.2.1]; omega
  | ⟨1, _⟩ => show win0_5.index t 1 * 128 + 1 * (j 1).val = (j 1).val; rw [(idx_fixed t).2.2.2.2.2.2.2]; omega

/-- A tile entry, over any blocks that agree with row p of the whole arrays: the hidden matrix's entry (p, q). -/
theorem tile_entry_var (x0 x1 : Vec Ideal S2000x128 .f32) (x2 : Vec Ideal S128x128 .f32) (x3 : Vec Ideal S1x128 .f32)
    (x4 : Vec Ideal S128x128 .f32) (x5 : Vec Ideal S1x128 .f32) (X A : Mat 50000 128) (W1 : Mat 128 128) (B1 : Mat 1 128)
    (W2 : Mat 128 128) (B2 : Mat 1 128) (p : Fin 50000) (r : Fin 2000)
    (h0 : ∀ l : Fin 128, x0 (ix2 r l) = X (ix2 p l)) (h1 : ∀ l : Fin 128, x1 (ix2 r l) = A (ix2 p l))
    (h2 : x2 = W1) (h3 : x3 = B1) (h4 : x4 = W2) (h5 : x5 = B2) (q : Fin 128) :
    k0_pay4 (F := Ideal) x0 x1 x2 x3 x4 x5 (ix2 r q) = hidden one X A W1 (rowOf B1) W2 (rowOf B2) (ix2 p q) := by
  subst h2 h3 h4 h5
  rw [hidden_tile]
  exact hidden_rows one x0 x1 X A x2 (rowOf x3) x4 (rowOf x5) r p h0 h1 q

/-- Point t's tile, entry (r, q), is the hidden matrix's entry (2000 t + r, q). -/
theorem tile_entry (c : Dev nD) (t : Fin cfg0.N) (r : Fin 2000) (q : Fin 128) :
    k0_pay4 (F := Ideal) (iblk0 V c 0 t) (iblk0 V c 1 t) (iblk0 V c 2 t) (iblk0 V c 3 t) (iblk0 V c 4 t) (iblk0 V c 5 t) (ix2 r q) = rowAt (H V c) (t.val * 2000 + r.val) q := by
  have hp : t.val * 2000 + r.val < 50000 := by have := t.isLt; have := r.isLt; have := hN; omega
  rw [rowAt_of_lt _ _ hp]
  exact tile_entry_var (iblk0 V c 0 t) (iblk0 V c 1 t) (iblk0 V c 2 t) (iblk0 V c 3 t) (iblk0 V c 4 t) (iblk0 V c 5 t)
    (V c main_arg0) (V c main_v13) (V c main_arg2) (V c main_v14) (V c main_arg4) (V c main_v15)
    ⟨t.val * 2000 + r.val, hp⟩ r (fun l => blk_x V c t r l hp) (fun l => blk_agg V c t r l hp)
    (blk_w1 V c t) (blk_b1 V c t) (blk_w2 V c t) (blk_b2 V c t) q

/-- The column sums of point t's tile are block t's sums of the hidden matrix. -/
theorem tile_colsum (c : Dev nD) (t : Fin cfg0.N) (q : Fin 128) :
    ∑ r : Fin 2000, k0_pay4 (F := Ideal) (iblk0 V c 0 t) (iblk0 V c 1 t) (iblk0 V c 2 t) (iblk0 V c 3 t) (iblk0 V c 4 t) (iblk0 V c 5 t) (ix2 r q) = blockSum (H V c) t.val q :=
  Finset.sum_congr rfl fun r _ => tile_entry V c t r q

/-- The column sums of the squares of point t's tile are block t's sums of the squares of the hidden matrix. -/
theorem tile_colsumsq (c : Dev nD) (t : Fin cfg0.N) (q : Fin 128) :
    ∑ r : Fin 2000, k0_pay4 (F := Ideal) (iblk0 V c 0 t) (iblk0 V c 1 t) (iblk0 V c 2 t) (iblk0 V c 3 t) (iblk0 V c 4 t) (iblk0 V c 5 t) (ix2 r q) * k0_pay4 (F := Ideal) (iblk0 V c 0 t) (iblk0 V c 1 t) (iblk0 V c 2 t) (iblk0 V c 3 t) (iblk0 V c 4 t) (iblk0 V c 5 t) (ix2 r q)
      = blockSum (squares (H V c)) t.val q :=
  Finset.sum_congr rfl fun r _ => by rw [tile_entry V c t r q, rowAt_squares]

/-- What the three output buffers hold after the first point, as payloads of its blocks. -/
theorem step_first (c : Dev nD) (t : Fin cfg0.N) (h0 : t.val % 25 = 0) :
    (outsAt0 V c t.val t.isLt).1 = k0_pay4 (iblk0 V c 0 t) (iblk0 V c 1 t) (iblk0 V c 2 t) (iblk0 V c 3 t) (iblk0 V c 4 t) (iblk0 V c 5 t)
    ∧ (outsAt0 V c t.val t.isLt).2.1 = k0_pay5 (iblk0 V c 0 t) (iblk0 V c 1 t) (iblk0 V c 2 t) (iblk0 V c 3 t) (iblk0 V c 4 t) (iblk0 V c 5 t) (k0_pay2 (F := Ideal))
    ∧ (outsAt0 V c t.val t.isLt).2.2 = k0_pay1 (k0_pay4 (iblk0 V c 0 t) (iblk0 V c 1 t) (iblk0 V c 2 t) (iblk0 V c 3 t) (iblk0 V c 4 t) (iblk0 V c 5 t)) (k0_pay3 (F := Ideal)) := by
  rw [outsAt0_A V c t h0]
  dsimp only
  exact ⟨Pieces.first_hidden (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
    Pieces.first_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
    Pieces.first_sumsq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)⟩

/-- What the three output buffers hold after a later point, as payloads of its blocks and of what the point before left. -/
theorem step_later (c : Dev nD) (t : Fin cfg0.N) (h0 : ¬t.val % 25 = 0) :
    (outsAt0 V c t.val t.isLt).1 = k0_pay4 (iblk0 V c 0 t) (iblk0 V c 1 t) (iblk0 V c 2 t) (iblk0 V c 3 t) (iblk0 V c 4 t) (iblk0 V c 5 t)
    ∧ (outsAt0 V c t.val t.isLt).2.1 = k0_pay5 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1
    ∧ (outsAt0 V c t.val t.isLt).2.2 = k0_pay1 (k0_pay4 (iblk0 V c 0 t) (iblk0 V c 1 t) (iblk0 V c 2 t) (iblk0 V c 3 t) (iblk0 V c 4 t) (iblk0 V c 5 t)) (outsAt0 V c (t.val - 1) (Nat.lt_of_le_of_lt (Nat.sub_le _ _) t.isLt)).2.2 := by
  rw [outsAt0_B V c t h0]
  dsimp only
  exact ⟨Pieces.later_hidden (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2,
    Pieces.later_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2,
    Pieces.later_sumsq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2⟩

/-- The two running sums' windows stay at block (0, 0). -/
theorem idx_sums : ∀ t : Fin cfg0.N, win0_7.index t 0 = 0 ∧ win0_7.index t 1 = 0 ∧ win0_8.index t 0 = 0 ∧ win0_8.index t 1 = 0 :=
  (by decide +kernel : ∀ t : Fin grid0.N, _)

/-- AFTER POINT n: the tile buffer holds rows 2000 n .. of the hidden matrix, the running sums the column sums of the
    hidden matrix and of its squares over blocks 0 .. n. By induction on the point. -/
theorem outs_inv (c : Dev nD) : ∀ (n : ℕ) (hn : n < cfg0.N),
    (∀ (r : Fin 2000) (q : Fin 128),
        ((outsAt0 V c n hn).1 : Vec Ideal S2000x128 .f32) (ix2 r q) = rowAt (H V c) (n * 2000 + r.val) q)
    ∧ (∀ q : Fin 128, ((outsAt0 V c n hn).2.1 : Vec Ideal S1x128 .f32) (ix2 (0 : Fin 1) q) = prefixSum (H V c) n q)
    ∧ (∀ q : Fin 128, ((outsAt0 V c n hn).2.2 : Vec Ideal S1x128 .f32) (ix2 (0 : Fin 1) q) = prefixSum (squares (H V c)) n q)
  | 0, hn => by
    obtain ⟨e1, e2, e3⟩ := step_first V c ⟨0, hn⟩ rfl
    have e1' : (outsAt0 V c 0 hn).1 = _ := e1
    have e2' : (outsAt0 V c 0 hn).2.1 = _ := e2
    have e3' : (outsAt0 V c 0 hn).2.2 = _ := e3
    refine ⟨fun r q => ?_, fun q => ?_, fun q => ?_⟩
    · rw [e1']; exact tile_entry V c ⟨0, hn⟩ r q
    · rw [e2']
      refine (sum_tile (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (k0_pay2 (F := Ideal)) q).trans ?_
      rw [zero_row_sum, zero_add, prefixSum_zero]
      exact tile_colsum V c ⟨0, hn⟩ q
    · rw [e3']
      refine (sumsq_tile (k0_pay4 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)) (k0_pay3 (F := Ideal)) q).trans ?_
      rw [zero_row_sumsq, zero_add, prefixSum_zero]
      exact tile_colsumsq V c ⟨0, hn⟩ q
  | n + 1, hn => by
    have hB : ¬(⟨n + 1, hn⟩ : Fin cfg0.N).val % 25 = 0 := by have := hN; dsimp only; omega
    obtain ⟨e1, e2, e3⟩ := step_later V c ⟨n + 1, hn⟩ hB
    obtain ⟨-, i2, i3⟩ := outs_inv c n (Nat.lt_of_succ_lt hn)
    have e1' : (outsAt0 V c (n + 1) hn).1 = _ := e1
    have e2' : (outsAt0 V c (n + 1) hn).2.1 = _ := e2
    have e3' : (outsAt0 V c (n + 1) hn).2.2 = _ := e3
    refine ⟨fun r q => ?_, fun q => ?_, fun q => ?_⟩
    · rw [e1']; exact tile_entry V c ⟨n + 1, hn⟩ r q
    · rw [e2']
      refine (sum_tile (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) _ q).trans ?_
      rw [prefixSum_succ]
      exact congrArg₂ (· + ·) (i2 q) (tile_colsum V c ⟨n + 1, hn⟩ q)
    · rw [e3']
      refine (sumsq_tile (k0_pay4 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)) _ q).trans ?_
      rw [prefixSum_succ]
      exact congrArg₂ (· + ·) (i3 q) (tile_colsumsq V c ⟨n + 1, hn⟩ q)

/-- The last grid point. -/
def tLast : Fin cfg0.N := ⟨24, by rw [hN]; decide⟩

/-- The row of column sums the region leaves: the running sum after the last point. -/
def colSums (c : Dev nD) : Mat 1 128 := (outsAt0 V c 24 tLast.isLt).2.1

/-- The row of column sums of squares the region leaves. -/
def colSumsSq (c : Dev nD) : Mat 1 128 := (outsAt0 V c 24 tLast.isLt).2.2

theorem colSums_apply (c : Dev nD) (q : Fin 128) : colSums V c (ix2 (0 : Fin 1) q) = colSum (H V c) q :=
  ((outs_inv V c 24 tLast.isLt).2.1 q).trans (prefixSum_last _ q)

theorem colSumsSq_apply (c : Dev nD) (q : Fin 128) : colSumsSq V c (ix2 (0 : Fin 1) q) = colSum (squares (H V c)) q :=
  ((outs_inv V c 24 tLast.isLt).2.2 q).trans (prefixSum_last _ q)

/-! ## The hidden output: every point writes its tile back, and the tiles are the rows -/

/-- What point t writes back is block t of the hidden matrix. -/
theorem flushed_hidden (c : Dev nD) (t : Fin cfg0.N) (hf : (cfg0.win 6).flush t = true) :
    (dat0 V c).flushed 6 t = ((cfg0.win 6).blk t).view.read (Elt Ideal) (H V c) := by
  show (cfg0.win 6).cut (grid0.coords t) ((dat0 V c).after 6 t) = _
  rw [after0_6]
  funext j
  show ((outsAt0 V c t.val t.isLt).1 : Vec Ideal S2000x128 .f32) j = H V c (((cfg0.win 6).blk t).view.emb j)
  obtain ⟨r, q, rfl⟩ : ∃ (r : Fin 2000) (q : Fin 128), j = ix2 r q := ⟨j 0, j 1, eq_ix2 j⟩
  have hp : t.val * 2000 + r.val < 50000 := by have := t.isLt; have := r.isLt; have := hN; omega
  rw [(outs_inv V c t.val t.isLt).1 r q, rowAt_of_lt _ _ hp]
  refine congrArg (H V c) ?_
  funext a
  apply Fin.ext
  match a with
  | ⟨0, _⟩ => show t.val * 2000 + r.val = win0_6.index t 0 * 2000 + 1 * r.val; rw [(idx_rows t).2.2.2.2.1]; omega
  | ⟨1, _⟩ => show q.val = win0_6.index t 1 * 128 + 1 * q.val; rw [(idx_rows t).2.2.2.2.2]; omega

/-- Row p of the array is in the block of point p / 2000. -/
theorem cover_hidden (i : S50000x128.Idx) :
    ∃ t : Fin cfg0.N, (cfg0.win 6).flush t = true ∧ i ∈ ((cfg0.win 6).blk t).view.set := by
  have h0 : (i 0).val < 50000 := (i 0).isLt
  have h1 : (i 1).val < 128 := (i 1).isLt
  obtain ⟨t, ht⟩ : ∃ t : Fin cfg0.N, t.val = (i 0).val / 2000 := ⟨⟨(i 0).val / 2000, by rw [hN]; omega⟩, rfl⟩
  refine ⟨t, flush0_6 t, ?_⟩
  show i ∈ ((View.whole main_v16_0).slice (win0_6.rect t)).set
  rw [View.set_slice_whole, Rect.mem_set_unit]
  intro a
  match a with
  | ⟨0, _⟩ =>
    show win0_6.index t 0 * 2000 ≤ (i 0).val ∧ (i 0).val < win0_6.index t 0 * 2000 + 2000
    rw [(idx_rows t).2.2.2.2.1]; omega
  | ⟨1, _⟩ =>
    show win0_6.index t 1 * 128 ≤ (i 1).val ∧ (i 1).val < win0_6.index t 1 * 128 + 128
    rw [(idx_rows t).2.2.2.2.2]; omega

/-- The first output array ends as the hidden matrix. -/
theorem final_hidden (c : Dev nD) : (dat0 V c).arrAt 6 cfg0.N = H V c :=
  (dat0 V c).arrAt_eq_of_cover 6 (H V c) (flushed_hidden V c) cover_hidden

/-! ## The two running sums: one write-back, after the last point -/

theorem flushed_sums (c : Dev nD) (t : Fin cfg0.N) (hf : (cfg0.win 7).flush t = true) :
    (dat0 V c).flushed 7 t = ((cfg0.win 7).blk t).view.read (Elt Ideal) (colSums V c) := by
  have h24 : t.val = 24 := by have := (flush0_7 t).mp hf; have := t.isLt; have := hN; omega
  obtain rfl : t = tLast := Fin.ext h24
  show (cfg0.win 7).cut (grid0.coords tLast) ((dat0 V c).after 7 tLast) = _
  rw [after0_7]
  have hz' : (fun a => win0_7.index tLast a * main_v16_1.ty.shape.size a) = fun _ => 0 := funext fun a => by
    match a with
    | ⟨0, _⟩ => show win0_7.index tLast 0 * 1 = 0; rw [(idx_sums tLast).1]
    | ⟨1, _⟩ => show win0_7.index tLast 1 * 128 = 0; rw [(idx_sums tLast).2.1]
  exact (Memref.read_access_unit_zero (Elt Ideal) main_v16_1 hz' (fun a => by rw [congrFun hz' a]; simp) (colSums V c)).symm

theorem cover_sums (i : S1x128.Idx) :
    ∃ t : Fin cfg0.N, (cfg0.win 7).flush t = true ∧ i ∈ ((cfg0.win 7).blk t).view.set := by
  have h0 : (i 0).val < 1 := (i 0).isLt
  have h1 : (i 1).val < 128 := (i 1).isLt
  refine ⟨tLast, (flush0_7 tLast).mpr rfl, ?_⟩
  show i ∈ ((View.whole main_v16_1).slice (win0_7.rect tLast)).set
  rw [View.set_slice_whole, Rect.mem_set_unit]
  intro a
  match a with
  | ⟨0, _⟩ =>
    show win0_7.index tLast 0 * 1 ≤ (i 0).val ∧ (i 0).val < win0_7.index tLast 0 * 1 + 1
    rw [(idx_sums tLast).1]; omega
  | ⟨1, _⟩ =>
    show win0_7.index tLast 1 * 128 ≤ (i 1).val ∧ (i 1).val < win0_7.index tLast 1 * 128 + 128
    rw [(idx_sums tLast).2.1]; omega

/-- The second output array ends as the row of column sums. -/
theorem final_sums (c : Dev nD) : (dat0 V c).arrAt 7 cfg0.N = colSums V c :=
  (dat0 V c).arrAt_eq_of_cover 7 (colSums V c) (flushed_sums V c) cover_sums

theorem flushed_sumsq (c : Dev nD) (t : Fin cfg0.N) (hf : (cfg0.win 8).flush t = true) :
    (dat0 V c).flushed 8 t = ((cfg0.win 8).blk t).view.read (Elt Ideal) (colSumsSq V c) := by
  have h24 : t.val = 24 := by have := (flush0_8 t).mp hf; have := t.isLt; have := hN; omega
  obtain rfl : t = tLast := Fin.ext h24
  show (cfg0.win 8).cut (grid0.coords tLast) ((dat0 V c).after 8 tLast) = _
  rw [after0_8]
  have hz' : (fun a => win0_8.index tLast a * main_v16_2.ty.shape.size a) = fun _ => 0 := funext fun a => by
    match a with
    | ⟨0, _⟩ => show win0_8.index tLast 0 * 1 = 0; rw [(idx_sums tLast).2.2.1]
    | ⟨1, _⟩ => show win0_8.index tLast 1 * 128 = 0; rw [(idx_sums tLast).2.2.2]
  exact (Memref.read_access_unit_zero (Elt Ideal) main_v16_2 hz' (fun a => by rw [congrFun hz' a]; simp) (colSumsSq V c)).symm

theorem cover_sumsq (i : S1x128.Idx) :
    ∃ t : Fin cfg0.N, (cfg0.win 8).flush t = true ∧ i ∈ ((cfg0.win 8).blk t).view.set := by
  have h0 : (i 0).val < 1 := (i 0).isLt
  have h1 : (i 1).val < 128 := (i 1).isLt
  refine ⟨tLast, (flush0_8 tLast).mpr rfl, ?_⟩
  show i ∈ ((View.whole main_v16_2).slice (win0_8.rect tLast)).set
  rw [View.set_slice_whole, Rect.mem_set_unit]
  intro a
  match a with
  | ⟨0, _⟩ =>
    show win0_8.index tLast 0 * 1 ≤ (i 0).val ∧ (i 0).val < win0_8.index tLast 0 * 1 + 1
    rw [(idx_sums tLast).2.2.1]; omega
  | ⟨1, _⟩ =>
    show win0_8.index tLast 1 * 128 ≤ (i 1).val ∧ (i 1).val < win0_8.index tLast 1 * 128 + 128
    rw [(idx_sums tLast).2.2.2]; omega

/-- The third output array ends as the row of column sums of squares. -/
theorem final_sumsq (c : Dev nD) : (dat0 V c).arrAt 8 cfg0.N = colSumsSq V c :=
  (dat0 V c).arrAt_eq_of_cover 8 (colSumsSq V c) (flushed_sumsq V c) cover_sumsq

end Cert.KernelIdeal.Region0
end
-- ==== Proof.KernelTailBody.lean ====
/-
  What one grid point of the normalizing kernel stores, read at an index.

  The point loads a block h of 2000 rows of the hidden matrix, the matching block x of the node features, and four rows
  of 128 entries: the column means mu, the column variances var, the scale gamma and the shift beta. It stores, at row r
  and column q,
      x(r, q) + max(((h(r, q) - mu(q)) * rsqrt(var(q) + eps)) * gamma(q) + beta(q), 0),
  each row statistic repeated down the 2000 rows of the block. The store goes through the whole block and the loads read
  whole blocks, so the block after the point is that function of the six blocks before it.
-/
import proofs.«159342_j43061342110476_1_alg».proof.Proof.Gen.KernelIdeal.Frame
import Idealize.ShloMosaic.Lib.ValueLayout
import Idealize.ShloMosaic.Lib.ValueIdx
import Idealize.ShloMosaic.Lib.Pipeline.Value

noncomputable section

namespace Cert.KernelIdeal.Tail

open Cert.KernelIdeal Cert.KernelIdeal.Gen Idealize.ShloMosaic Idealize.ShloMosaic.ValueIdx

/-- The zero offsets of a whole-block access, as a constant function. -/
theorem zeroOffsets : (![0, 0] : Fin 2 → Nat) = fun _ => 0 := funext fun a => by fin_cases a <;> rfl

/-- The stored value at row r, column q of the block. -/
theorem payload_apply (x0 x1 : Vec Ideal S2000x128 .f32) (x2 x3 x4 x5 : Vec Ideal S1x128 .f32)
    (r : Fin 2000) (q : Fin 128) :
    k1_pay1 x0 x1 x2 x3 x4 x5 (ix2 r q)
      = x1 (ix2 r q) + max (((x0 (ix2 r q) - x2 (ix2 (0 : Fin 1) q))
            * Ideal.rsqrt (x3 (ix2 (0 : Fin 1) q) + Ideal.ofBits .f32 0x3727C5AC#32)) * x4 (ix2 (0 : Fin 1) q)
            + x5 (ix2 (0 : Fin 1) q)) (Ideal.ofBits .f32 0x00000000#32) := by
  unfold k1_pay1
  simp only [shapeCast_self]
  show x1 (ix2 r q) + max
      (((x0 (ix2 r q) - broadcastTo S2000x128 x2 broadcasts_S1x128_S2000x128 (ix2 r q))
          * broadcastTo S2000x128 (rsqrt (addf x3 (broadcast S1x128 (Scalar.ofBits (F := Ideal) .f32 0x3727C5AC#32))))
              broadcasts_S1x128_S2000x128 (ix2 r q))
        * broadcastTo S2000x128 x4 broadcasts_S1x128_S2000x128 (ix2 r q)
        + broadcastTo S2000x128 x5 broadcasts_S1x128_S2000x128 (ix2 r q))
      (Ideal.ofBits .f32 0x00000000#32) = _
  rw [broadcastTo_1b_ab_apply x2, broadcastTo_1b_ab_apply x4, broadcastTo_1b_ab_apply x5,
    broadcastTo_1b_ab_apply (rsqrt (addf x3 (broadcast S1x128 (Scalar.ofBits (F := Ideal) .f32 0x3727C5AC#32))))]
  rfl

/-- The block after the point, at row r and column q, from the six blocks before it. -/
theorem out_apply (x0 x1 : Vec Ideal S2000x128 .f32) (x2 x3 x4 x5 : Vec Ideal S1x128 .f32)
    (r : Fin 2000) (q : Fin 128) :
    out1_6 x0 x1 x2 x3 x4 x5 (ix2 r q)
      = x1 (ix2 r q) + max (((x0 (ix2 r q) - x2 (ix2 (0 : Fin 1) q))
            * Ideal.rsqrt (x3 (ix2 (0 : Fin 1) q) + Ideal.ofBits .f32 0x3727C5AC#32)) * x4 (ix2 (0 : Fin 1) q)
            + x5 (ix2 (0 : Fin 1) q)) (Ideal.ofBits .f32 0x00000000#32) := by
  unfold out1_6
  rw [View.canon_unit_zero zeroOffsets]
  simp only [View.ld_unit_zero (S := S2000x128) zeroOffsets, View.ld_unit_zero (S := S1x128) zeroOffsets]
  exact payload_apply x0 x1 x2 x3 x4 x5 r q

end Cert.KernelIdeal.Tail

end
-- ==== Proof.LibBroadcastInDim.lean ====
/-
  A broadcast along named axes (stablehlo.broadcast_in_dim), read at an index, for the three layouts a row statistic
  meets on the host: a scalar repeated over any shape; a vector [a] laid out as a column [a, 1]; a column [a, 1]
  repeated across the b columns of an [a, b] matrix. For any extents and any element type.
-/
import Idealize.ShloMosaic.Lib.Pipeline.Value
import Idealize.ShloMosaic.Lib.ValueIdx

noncomputable section

namespace Cert.Lib.BroadcastInDim

open Idealize.ShloMosaic Idealize.ShloMosaic.ValueIdx

variable {α : Type}

/-- A scalar (a rank-0 array) broadcast to any shape: every element is the scalar. -/
theorem scalar_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply dims h x j ix0 (fun a => a.elim0)

/-- A vector laid out as a column, [a] → [a, 1] along axis 0: row p of the column is element p of the vector. -/
theorem vecAsCol_apply {a : Nat} (h : (⟨1, ![a]⟩ : Shape).BroadcastsInDim ⟨2, ![a, 1]⟩ (![0] : Fin 1 → Fin 2))
    (v : (⟨1, ![a]⟩ : Shape).Idx → α) (p : Fin a) :
    broadcastInDim ⟨2, ![a, 1]⟩ ![0] h v (ix2 p (0 : Fin 1)) = v (ix1 p) :=
  broadcastInDim_apply _ h v (ix2 p (0 : Fin 1)) (ix1 p) (fun d => match d with
    | ⟨0, _⟩ => by
        show p.val = if a = 1 then 0 else p.val
        split_ifs with ha
        · subst ha; have := p.isLt; omega
        · rfl)

/-- A column repeated across the columns of a matrix, [a, 1] → [a, b] along axes 0 and 1: entry (p, q) is the
    column's row p. -/
theorem colAcross_apply {a b : Nat}
    (h : (⟨2, ![a, 1]⟩ : Shape).BroadcastsInDim ⟨2, ![a, b]⟩ (![0, 1] : Fin 2 → Fin 2))
    (col : (⟨2, ![a, 1]⟩ : Shape).Idx → α) (p : Fin a) (q : Fin b) :
    broadcastInDim ⟨2, ![a, b]⟩ ![0, 1] h col (ix2 p q) = col (ix2 p (0 : Fin 1)) :=
  broadcastInDim_apply _ h col (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

end Cert.Lib.BroadcastInDim

end
-- ==== Proof.KernelTail.lean ====
/-
  The second half of the graph layer's kernel program: the statistics rows on the host, and the normalizing kernel.

  After the first kernel the program holds the hidden matrix H (50000 rows, 128 columns) and two rows of column sums,
  S of H and SS of its squares. The host divides both rows by the row count 50000, takes
      mean = S / 50000,   var = SS / 50000 - mean * mean,
  and lays the scale vector gamma and the shift vector beta out as rows. The second kernel then walks the 50000 rows in
  25 blocks of 2000: at block t it reads rows 2000 t … 2000 t + 1999 of H and of the node features x and the four whole
  rows, and writes the same rows of the result,
      x + max(((H - mean) * rsqrt(var + eps)) * gamma + beta, 0).
  The blocks tile the result, no host operation in between writes H, x, gamma or beta, so the result array is the
  layer's output function of x, H, the two quotient rows, gamma and beta, entry by entry.
-/
import proofs.«159342_j43061342110476_1_alg».proof.Proof.KernelTailBody
import proofs.«159342_j43061342110476_1_alg».proof.Proof.Spec
import proofs.«159342_j43061342110476_1_alg».proof.Proof.LibBroadcastInDim

noncomputable section

namespace Cert.KernelIdeal.Tail

open Cert.KernelIdeal Cert.KernelIdeal.Gen Idealize.ShloMosaic Idealize.ShloMosaic.TcCoe Idealize.SL.Sem
open Idealize.ShloMosaic.ValueIdx
open Idealize.ShloMosaic.Pipeline (Dat)

/-! ## One grid point, from the arrays the kernel finds

The grid has 25 points; point t works on rows 2000 t … 2000 t + 1999 of the hidden matrix, of the node features and of
the result, and on the whole of each of the four rows. -/

section Point

variable (V : (c : Dev nD) → (b : Ref sig .tc) → Buf (Elt Ideal) ((c : Thread nD τ).loc b)) (c : Dev nD)

/-- The block index of each window at each point: the two matrix inputs move with the result, down the rows;
    the four row inputs stay at their one block. -/
theorem index_facts : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The hidden matrix's block at point t is its rows 2000 t + r. -/
theorem hiddenBlock_apply (t : Fin cfg1.N) (y : S2000x128.Idx) (k : S50000x128.Idx)
    (hk0 : (k 0).val = 2000 * t.val + (y 0).val) (hk1 : (k 1).val = (y 1).val) :
    (iblk1 V c 0 t : Vec Ideal S2000x128 .f32) y = (V c main_v16_0 : S50000x128.Idx → EReal) k := by
  obtain ⟨-, -, e0, e1, -⟩ := index_facts t
  unfold iblk1
  rw [View.read_apply]
  show V c main_v16_0 _ = V c main_v16_0 _
  refine congrArg _ ?_
  funext a
  apply Fin.ext
  match a with
  | ⟨0, _⟩ => show win1_0.index t (0 : Fin 2) * 2000 + 1 * (y 0).val = (k 0).val; omega
  | ⟨1, _⟩ => show win1_0.index t (1 : Fin 2) * 128 + 1 * (y 1).val = (k 1).val; omega

/-- The node features' block at point t is their rows 2000 t + r. -/
theorem featuresBlock_apply (t : Fin cfg1.N) (y : S2000x128.Idx) (k : S50000x128.Idx)
    (hk0 : (k 0).val = 2000 * t.val + (y 0).val) (hk1 : (k 1).val = (y 1).val) :
    (iblk1 V c 1 t : Vec Ideal S2000x128 .f32) y = (V c main_arg0 : S50000x128.Idx → EReal) k := by
  obtain ⟨-, -, -, -, e0, e1, -⟩ := index_facts t
  unfold iblk1
  rw [View.read_apply]
  show V c main_arg0 _ = V c main_arg0 _
  refine congrArg _ ?_
  funext a
  apply Fin.ext
  match a with
  | ⟨0, _⟩ => show win1_1.index t (0 : Fin 2) * 2000 + 1 * (y 0).val = (k 0).val; omega
  | ⟨1, _⟩ => show win1_1.index t (1 : Fin 2) * 128 + 1 * (y 1).val = (k 1).val; omega

/-- The mean row's block at any point is the whole row. -/
theorem meanBlock_apply (t : Fin cfg1.N) (y : S1x128.Idx) :
    (iblk1 V c 2 t : Vec Ideal S1x128 .f32) y = (V c main_v18 : S1x128.Idx → EReal) y := by
  obtain ⟨-, -, -, -, -, -, e0, e1, -⟩ := index_facts t
  unfold iblk1
  rw [View.read_apply]
  show V c main_v18 _ = V c main_v18 _
  refine congrArg _ ?_
  funext a
  apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The variance row's block at any point is the whole row. -/
theorem varBlock_apply (t : Fin cfg1.N) (y : S1x128.Idx) :
    (iblk1 V c 3 t : Vec Ideal S1x128 .f32) y = (V c main_v22 : S1x128.Idx → EReal) y := by
  obtain ⟨-, -, -, -, -, -, -, -, e0, e1, -⟩ := index_facts t
  unfold iblk1
  rw [View.read_apply]
  show V c main_v22 _ = V c main_v22 _
  refine congrArg _ ?_
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The scale row's block at any point is the whole row. -/
theorem scaleBlock_apply (t : Fin cfg1.N) (y : S1x128.Idx) :
    (iblk1 V c 4 t : Vec Ideal S1x128 .f32) y = (V c main_v23 : S1x128.Idx → EReal) y := by
  obtain ⟨-, -, -, -, -, -, -, -, -, -, e0, e1, -⟩ := index_facts t
  unfold iblk1
  rw [View.read_apply]
  show V c main_v23 _ = V c main_v23 _
  refine congrArg _ ?_
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The shift row's block at any point is the whole row. -/
theorem shiftBlock_apply (t : Fin cfg1.N) (y : S1x128.Idx) :
    (iblk1 V c 5 t : Vec Ideal S1x128 .f32) y = (V c main_v24 : S1x128.Idx → EReal) y := by
  obtain ⟨-, -, -, -, -, -, -, -, -, -, -, -, e0, e1⟩ := index_facts t
  unfold iblk1
  rw [View.read_apply]
  show V c main_v24 _ = V c main_v24 _
  refine congrArg _ ?_
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

variable (X H : Cert.Layers.Mat 50000 128) (mu var : Fin 128 → EReal) (gamma beta : Cert.Layers.Row 128)
variable (hX : (V c main_arg0 : S50000x128.Idx → EReal) = X) (hH : (V c main_v16_0 : S50000x128.Idx → EReal) = H)
variable (hmu : ∀ q : Fin 128, (V c main_v18 : S1x128.Idx → EReal) (ix2 (0 : Fin 1) q) = mu q)
variable (hvar : ∀ q : Fin 128, (V c main_v22 : S1x128.Idx → EReal) (ix2 (0 : Fin 1) q) = var q)
variable (hgamma : ∀ q : Fin 128, (V c main_v23 : S1x128.Idx → EReal) (ix2 (0 : Fin 1) q) = gamma (ix1 q))
variable (hbeta : ∀ q : Fin 128, (V c main_v24 : S1x128.Idx → EReal) (ix2 (0 : Fin 1) q) = beta (ix1 q))

include hX hH hmu hvar hgamma hbeta

/-- What point t leaves at row r, column q of its block is the layer's output at row 2000 t + r, column q. -/
theorem point_apply (t : Fin cfg1.N) (y : S2000x128.Idx) (k : S50000x128.Idx)
    (hk0 : (k 0).val = 2000 * t.val + (y 0).val) (hk1 : (k 1).val = (y 1).val) :
    out1_6 (iblk1 V c 0 t) (iblk1 V c 1 t) (iblk1 V c 2 t) (iblk1 V c 3 t) (iblk1 V c 4 t) (iblk1 V c 5 t) y
      = Cert.GraphNorm.output Cert.GraphNorm.eps X H mu var gamma beta k := by
  have e0 := hiddenBlock_apply V c t y k hk0 hk1
  have e1 := featuresBlock_apply V c t y k hk0 hk1
  obtain ⟨r, q, rfl⟩ : ∃ (r : Fin 2000) (q : Fin 128), y = ix2 r q := ⟨y 0, y 1, eq_ix2 y⟩
  obtain ⟨p, q', rfl⟩ : ∃ (p : Fin 50000) (q' : Fin 128), k = ix2 p q' := ⟨k 0, k 1, eq_ix2 k⟩
  obtain rfl : q' = q := Fin.ext hk1
  refine (out_apply _ _ _ _ _ _ r q').trans ?_
  rw [Cert.GraphNorm.output_apply, e0, e1, meanBlock_apply V c t, varBlock_apply V c t, scaleBlock_apply V c t,
    shiftBlock_apply V c t, hX, hH, hmu, hvar, hgamma, hbeta]

end Point

section Array

variable (V : (c : Dev nD) → (b : Ref sig .tc) → Buf (Elt Ideal) ((c : Thread nD τ).loc b)) (c : Dev nD)
variable (X H : Cert.Layers.Mat 50000 128) (mu var : Fin 128 → EReal) (gamma beta : Cert.Layers.Row 128)
variable (hX : (V c main_arg0 : S50000x128.Idx → EReal) = X) (hH : (V c main_v16_0 : S50000x128.Idx → EReal) = H)
variable (hmu : ∀ q : Fin 128, (V c main_v18 : S1x128.Idx → EReal) (ix2 (0 : Fin 1) q) = mu q)
variable (hvar : ∀ q : Fin 128, (V c main_v22 : S1x128.Idx → EReal) (ix2 (0 : Fin 1) q) = var q)
variable (hgamma : ∀ q : Fin 128, (V c main_v23 : S1x128.Idx → EReal) (ix2 (0 : Fin 1) q) = gamma (ix1 q))
variable (hbeta : ∀ q : Fin 128, (V c main_v24 : S1x128.Idx → EReal) (ix2 (0 : Fin 1) q) = beta (ix1 q))

include hX hH hmu hvar hgamma hbeta in
/-- What point t writes back is block t of the layer's output. -/
theorem flushed_eq (t : Fin cfg1.N) :
    (dat1 V c).flushed 6 t
      = ((cfg1.win 6).blk t).view.read (Elt Ideal) (Cert.GraphNorm.output Cert.GraphNorm.eps X H mu var gamma beta) := by
  show (cfg1.win 6).cut (grid1.coords t) ((dat1 V c).after 6 t) = _
  rw [after1_6]
  obtain ⟨e0, e1, -⟩ := index_facts t
  funext j
  refine point_apply V c X H mu var gamma beta hX hH hmu hvar hgamma hbeta t j (((cfg1.win 6).blk t).view.emb j) ?_ ?_
  · show win1_6.index t (0 : Fin 2) * 2000 + 1 * (j 0).val = 2000 * t.val + (j 0).val
    omega
  · show win1_6.index t (1 : Fin 2) * 128 + 1 * (j 1).val = (j 1).val
    omega

/-- An index of the result is in point t's block iff each coordinate is in the block's range on its axis. -/
theorem mem_block (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v25).slice (win1_6.rect t)).set ↔ _
  rw [View.set_slice_whole, Rect.mem_set_unit]
  exact Iff.rfl

/-- Row p of the result is in the block of point p / 2000. -/
theorem covered (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨e0, e1, -⟩ := index_facts t
  refine ⟨t, flush1_6 t, ?_⟩
  rw [mem_block]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 128 ≤ (i 1).val ∧ (i 1).val < win1_6.index t (1 : Fin 2) * 128 + 128
    omega

include hX hH hmu hvar hgamma hbeta in
/-- The result array after the 25 points is the layer's output. -/
theorem array_eq :
    (dat1 V c).arrAt 6 cfg1.N = Cert.GraphNorm.output Cert.GraphNorm.eps X H mu var gamma beta :=
  (dat1 V c).arrAt_eq_of_cover 6 (Cert.GraphNorm.output Cert.GraphNorm.eps X H mu var gamma beta)
    (fun t _ => flushed_eq V c X H mu var gamma beta hX hH hmu hvar hgamma hbeta t) covered

end Array

variable (m : (ℓ : Loc nD τ sig) → Buf (Elt Ideal) ℓ) (ρ : Dev nD → PrngReg) (c : Dev nD)

/-! ## What the second kernel finds in its windows' arrays

Between the two kernels the host divides the two column-sum rows by the row count, squares the first quotient, subtracts
it from the second, and lays the scale and shift vectors out as rows. Nothing there writes the hidden matrix or an
argument. -/

/-- The hidden matrix is as the first kernel left it. -/
theorem entry_hidden : V3 m ρ c main_v16_0 = (dat0 (V1 m ρ) c).arrAt 6 cfg0.N :=
  (StableHlo.after_of_forall_not_mem (b := Proc.devRef .tc main_v16_0) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
    (W2_arr m ρ c 6)

/-- The node features are as launched. -/
theorem entry_features : V3 m ρ c main_arg0 = m ((c : Thread nD τ).loc main_arg0) :=
  ((W4_arr m ρ c 1).trans (((dat1 (V3 m ρ) c).arrAt_in 1 rfl _).trans (A_eq1 (V3 m ρ) c 1))).symm.trans
    (W4_main_arg0 m ρ c)

/-- The scale vector is as launched when the first kernel returns. -/
theorem exit0_scale : W2 m ρ c (Proc.devRef .tc main_arg6) = m ((c : Thread nD τ).loc main_arg6) :=
  (W2_of_ne m ρ c main_arg6 (by decide)).trans
    (StableHlo.after_of_forall_not_mem (b := Proc.devRef .tc main_arg6) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- The shift vector is as launched when the first kernel returns. -/
theorem exit0_shift : W2 m ρ c (Proc.devRef .tc main_arg7) = m ((c : Thread nD τ).loc main_arg7) :=
  (W2_of_ne m ρ c main_arg7 (by decide)).trans
    (StableHlo.after_of_forall_not_mem (b := Proc.devRef .tc main_arg7) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- The row count repeated along a row. -/
abbrev rowsRow : S1x128.Idx → EReal :=
  broadcastInDim S1x128 ![] bcast_S_S1x128 (constant (F := Ideal) S_ .f32 0x47435000#32)

theorem rowsRow_apply (i : S1x128.Idx) : rowsRow i = Cert.GraphNorm.rows :=
  Cert.Lib.BroadcastInDim.scalar_apply _ bcast_S_S1x128 (constant (F := Ideal) S_ .f32 0x47435000#32) i

/-- The mean row is the first column-sum row divided by the row count. -/
theorem entry_mean : (V3 m ρ c main_v18 : S1x128.Idx → EReal)
    = Host.divf (F := Ideal) (φ := .f32) (W2 m ρ c (Proc.devRef .tc main_v16_1) : S1x128.Idx → EReal) rowsRow := by
  show StableHlo.after hostOps1 (W2 m ρ c) (Proc.devRef .tc main_v18) = _
  dsimp only [hostOps1]
  after_results

/-- The variance row is the second quotient minus the square of the first. -/
theorem entry_var : (V3 m ρ c main_v22 : S1x128.Idx → EReal)
    = subf (F := Ideal) (φ := .f32)
        (Host.divf (F := Ideal) (φ := .f32) (W2 m ρ c (Proc.devRef .tc main_v16_2) : S1x128.Idx → EReal) rowsRow)
        (mulf (F := Ideal) (φ := .f32)
          (Host.divf (F := Ideal) (φ := .f32) (W2 m ρ c (Proc.devRef .tc main_v16_1) : S1x128.Idx → EReal) rowsRow)
          (Host.divf (F := Ideal) (φ := .f32) (W2 m ρ c (Proc.devRef .tc main_v16_1) : S1x128.Idx → EReal) rowsRow)) := by
  show StableHlo.after hostOps1 (W2 m ρ c) (Proc.devRef .tc main_v22) = _
  dsimp only [hostOps1]
  after_results

/-- The scale row is the scale vector laid out as one row. -/
theorem entry_scale : (V3 m ρ c main_v23 : S1x128.Idx → EReal)
    = shapeCast S1x128 (W2 m ρ c (Proc.devRef .tc main_arg6) : S128.Idx → EReal) shapeCasts_S128_S1x128 := by
  show StableHlo.after hostOps1 (W2 m ρ c) (Proc.devRef .tc main_v23) = _
  dsimp only [hostOps1]
  after_results
  rfl

/-- The shift row is the shift vector laid out as one row. -/
theorem entry_shift : (V3 m ρ c main_v24 : S1x128.Idx → EReal)
    = shapeCast S1x128 (W2 m ρ c (Proc.devRef .tc main_arg7) : S128.Idx → EReal) shapeCasts_S128_S1x128 := by
  show StableHlo.after hostOps1 (W2 m ρ c) (Proc.devRef .tc main_v24) = _
  dsimp only [hostOps1]
  after_results
  rfl

/-! ## The statistics rows read at a column, and the result -/

section Result

variable (H : Cert.Layers.Mat 50000 128) (S SS : Cert.Layers.Mat 1 128)
variable (h6 : (dat0 (V1 m ρ) c).arrAt 6 cfg0.N = H) (h7 : (dat0 (V1 m ρ) c).arrAt 7 cfg0.N = S)
variable (h8 : (dat0 (V1 m ρ) c).arrAt 8 cfg0.N = SS)

include h7 in
/-- The mean row at column q is the first column sum at q divided by the row count. -/
theorem mean_apply (q : Fin 128) :
    (V3 m ρ c main_v18 : S1x128.Idx → EReal) (ix2 (0 : Fin 1) q)
      = Ideal.div (S (ix2 (0 : Fin 1) q)) Cert.GraphNorm.rows := by
  rw [entry_mean]
  show Ideal.div ((W2 m ρ c (Proc.devRef .tc main_v16_1) : S1x128.Idx → EReal) (ix2 (0 : Fin 1) q))
      (rowsRow (ix2 (0 : Fin 1) q)) = _
  rw [rowsRow_apply, (W2_arr m ρ c 7).trans h7]

include h7 h8 in
/-- The variance row at column q is the second quotient minus the square of the first. -/
theorem var_apply (q : Fin 128) :
    (V3 m ρ c main_v22 : S1x128.Idx → EReal) (ix2 (0 : Fin 1) q)
      = Ideal.div (SS (ix2 (0 : Fin 1) q)) Cert.GraphNorm.rows
        - Ideal.div (S (ix2 (0 : Fin 1) q)) Cert.GraphNorm.rows * Ideal.div (S (ix2 (0 : Fin 1) q)) Cert.GraphNorm.rows := by
  rw [entry_var]
  show Ideal.div ((W2 m ρ c (Proc.devRef .tc main_v16_2) : S1x128.Idx → EReal) (ix2 (0 : Fin 1) q))
        (rowsRow (ix2 (0 : Fin 1) q))
      - Ideal.div ((W2 m ρ c (Proc.devRef .tc main_v16_1) : S1x128.Idx → EReal) (ix2 (0 : Fin 1) q))
          (rowsRow (ix2 (0 : Fin 1) q))
        * Ideal.div ((W2 m ρ c (Proc.devRef .tc main_v16_1) : S1x128.Idx → EReal) (ix2 (0 : Fin 1) q))
          (rowsRow (ix2 (0 : Fin 1) q)) = _
  rw [rowsRow_apply, (W2_arr m ρ c 7).trans h7, (W2_arr m ρ c 8).trans h8]

/-- The scale row at column q is the scale vector's entry q. -/
theorem scale_apply (q : Fin 128) :
    (V3 m ρ c main_v23 : S1x128.Idx → EReal) (ix2 (0 : Fin 1) q) = m ((c : Thread nD τ).loc main_arg6) (ix1 q) := by
  rw [entry_scale, shapeCast_a_1a_apply, exit0_scale]

/-- The shift row at column q is the shift vector's entry q. -/
theorem shift_apply (q : Fin 128) :
    (V3 m ρ c main_v24 : S1x128.Idx → EReal) (ix2 (0 : Fin 1) q) = m ((c : Thread nD τ).loc main_arg7) (ix1 q) := by
  rw [entry_shift, shapeCast_a_1a_apply, exit0_shift]

end Result

/-- The program's result: the layer's output of the node features, the hidden matrix the first kernel left, its two
    column-sum rows turned into mean and variance, and the scale and shift vectors. -/
theorem result_eq (m : (ℓ : Loc nD τ sig) → Buf (Elt Ideal) ℓ) (ρ : Dev nD → PrngReg) (c : Dev nD)
    (H : Cert.Layers.Mat 50000 128) (S SS : Cert.Layers.Mat 1 128)
    (h6 : (Gen.dat0 (Gen.V1 m ρ) c).arrAt 6 cfg0.N = H)
    (h7 : (Gen.dat0 (Gen.V1 m ρ) c).arrAt 7 cfg0.N = S)
    (h8 : (Gen.dat0 (Gen.V1 m ρ) c).arrAt 8 cfg0.N = SS) :
    Gen.W4 m ρ c (Proc.devRef .tc main_v25)
      = Cert.GraphNorm.output Cert.GraphNorm.eps (m ((c : Thread nD τ).loc main_arg0)) H
          (fun q => Ideal.div (S (ValueIdx.ix2 0 q)) Cert.GraphNorm.rows)
          (fun q => Ideal.div (SS (ValueIdx.ix2 0 q)) Cert.GraphNorm.rows
                      - Ideal.div (S (ValueIdx.ix2 0 q)) Cert.GraphNorm.rows * Ideal.div (S (ValueIdx.ix2 0 q)) Cert.GraphNorm.rows)
          (m ((c : Thread nD τ).loc main_arg6)) (m ((c : Thread nD τ).loc main_arg7)) :=
  (W4_arr m ρ c 6).trans
    (array_eq (V3 m ρ) c _ _ _ _ _ _ (entry_features m ρ c) ((entry_hidden m ρ c).trans h6)
      (mean_apply m ρ c S h7) (var_apply m ρ c S SS h7 h8) (scale_apply m ρ c) (shift_apply m ρ c))

end Cert.KernelIdeal.Tail

end
-- ==== Proof.KernelValue.lean ====
/-
  The idealized kernel program's value: what its result array holds, as one function of the argument arrays.

  The first stretch of host operations computes the neighbour sums (for each of the 600000 edges the source node's
  feature row, negative indices wrapped, gathered and add-scattered into the destination node's row of a zero matrix)
  and lays the two biases out as [1, 128] rows. The first region then finds the node features, the neighbour sums, the
  weights and the bias rows, and leaves the hidden matrix of all nodes and the rows of its column sums and of the
  column sums of its squares. The host operations between the regions and the second region turn these into
  x + max((h - mean) * rsqrt(var + eps) * gamma + beta, 0) with the variance taken as the second moment minus the
  squared mean: `layer varOfMoments`.
-/
import proofs.«159342_j43061342110476_1_alg».proof.Proof.KernelRun
import proofs.«159342_j43061342110476_1_alg».proof.Proof.Region0
import proofs.«159342_j43061342110476_1_alg».proof.Proof.KernelTail
import Idealize.ShloMosaic.Lib.StableHlo.Run

set_option maxRecDepth 16384

noncomputable section
open Idealize.ShloMosaic Idealize.ShloMosaic.TcCoe Idealize.SL.Sem Idealize.ShloMosaic.ValueIdx
open Idealize.ShloMosaic.Pipeline (Dat)

namespace Cert.KernelIdeal.KValue
open Cert.KernelIdeal Cert.KernelIdeal.Gen Cert.Layers Cert.GraphNorm Cert.KernelIdeal.Tile

/-- The neighbour sums as the program's first host operations compute them from the node features and the edge list. -/
def neighbourSum (x : FVec Ideal S50000x128 .f32) (ei : IVec S2x600000 32) : FVec Ideal S50000x128 .f32 :=
  Host.scatterAdd (F := Ideal) scatter_S50000x128_S600000x1_S600000x128_1_0_0_1
    (broadcastInDim S50000x128 ![] Gen.bcast_S_S50000x128 (constant (F := Ideal) S_ .f32 0x00000000#32))
    (broadcastInDim S600000x1 ![0] Gen.bcast_S600000_S600000x1_0
      (shapeCast S600000 (extractStridedSlice S1x600000 ![1, 0] ei Gen.slices_S2x600000_S1x600000_1_0) Gen.shapeCasts_S1x600000_S600000))
    (Host.gather gather_S50000x128_S600000x1_S600000x128_1_0_n_n_0_1_1128 x
      (broadcastInDim S600000x1 ![0] Gen.bcast_S600000_S600000x1_0
        (select
          (cmpi .slt (shapeCast S600000 (extractStridedSlice S1x600000 ![0, 0] ei Gen.slices_S2x600000_S1x600000_0_0) Gen.shapeCasts_S1x600000_S600000) (broadcastInDim S600000 ![] Gen.bcast_S_S600000 (constantI S_ 32 0#32)))
          (addi (shapeCast S600000 (extractStridedSlice S1x600000 ![0, 0] ei Gen.slices_S2x600000_S1x600000_0_0) Gen.shapeCasts_S1x600000_S600000) (broadcastInDim S600000 ![] Gen.bcast_S_S600000 (constantI S_ 32 50000#32)))
          (shapeCast S600000 (extractStridedSlice S1x600000 ![0, 0] ei Gen.slices_S2x600000_S1x600000_0_0) Gen.shapeCasts_S1x600000_S600000))))

variable (m : (ℓ : Loc nD τ sig) → Buf (Elt Ideal) ℓ) (ρ : Dev nD → PrngReg)

/-! ## The arrays the first region finds -/

attribute [local irreducible] Host.gather Host.scatterAdd in
theorem entry_agg (c : Dev nD) :
    (V1 m ρ c main_v13 : FVec Ideal S50000x128 .f32) = neighbourSum (m ((c : Thread nD τ).loc main_arg0)) (m ((c : Thread nD τ).loc main_arg1)) := by
  show StableHlo.after hostOps0 (W0 m ρ c) (Proc.devRef .tc main_v13) = _
  after_results
  rfl

theorem entry_x (c : Dev nD) : V1 m ρ c main_arg0 = (m ((c : Thread nD τ).loc main_arg0)) := by
  show StableHlo.after hostOps0 (W0 m ρ c) (Proc.devRef .tc main_arg0) = _
  after_results

theorem entry_w1 (c : Dev nD) : V1 m ρ c main_arg2 = (m ((c : Thread nD τ).loc main_arg2)) := by
  show StableHlo.after hostOps0 (W0 m ρ c) (Proc.devRef .tc main_arg2) = _
  after_results

theorem entry_w2 (c : Dev nD) : V1 m ρ c main_arg4 = (m ((c : Thread nD τ).loc main_arg4)) := by
  show StableHlo.after hostOps0 (W0 m ρ c) (Proc.devRef .tc main_arg4) = _
  after_results

theorem entry_b1 (c : Dev nD) :
    (V1 m ρ c main_v14 : FVec Ideal S1x128 .f32) = shapeCast S1x128 (m ((c : Thread nD τ).loc main_arg3)) Gen.shapeCasts_S128_S1x128 := by
  show StableHlo.after hostOps0 (W0 m ρ c) (Proc.devRef .tc main_v14) = _
  after_results
  rfl

theorem entry_b2 (c : Dev nD) :
    (V1 m ρ c main_v15 : FVec Ideal S1x128 .f32) = shapeCast S1x128 (m ((c : Thread nD τ).loc main_arg5)) Gen.shapeCasts_S128_S1x128 := by
  show StableHlo.after hostOps0 (W0 m ρ c) (Proc.devRef .tc main_v15) = _
  after_results
  rfl

/-- A [128] vector laid out as a [1, 128] row and read back as a vector is the vector. -/
theorem rowOf_reshape (b : FVec Ideal S128 .f32) : rowOf (shapeCast S1x128 b Gen.shapeCasts_S128_S1x128) = b := by
  funext i
  rw [eq_ix1 i]
  exact shapeCast_a_1a_apply b Gen.shapeCasts_S128_S1x128 0 (i 0)

/-- The hidden matrix the first region leaves, in terms of the argument arrays. -/
theorem hidden_eq (c : Dev nD) :
    Region0.H (V1 m ρ) c = hidden one (m ((c : Thread nD τ).loc main_arg0)) (neighbourSum (m ((c : Thread nD τ).loc main_arg0)) (m ((c : Thread nD τ).loc main_arg1)))
      (m ((c : Thread nD τ).loc main_arg2)) (m ((c : Thread nD τ).loc main_arg3)) (m ((c : Thread nD τ).loc main_arg4)) (m ((c : Thread nD τ).loc main_arg5)) := by
  unfold Region0.H
  rw [entry_x, entry_agg, entry_w1, entry_w2, entry_b1, entry_b2, rowOf_reshape, rowOf_reshape]

/-- The result array at the last boundary is the whole layer with the variance taken from the moments. -/
theorem result_value (c : Dev nD) :
    W4 m ρ c (Proc.devRef .tc main_v25)
      = layer varOfMoments (m ((c : Thread nD τ).loc main_arg0)) (neighbourSum (m ((c : Thread nD τ).loc main_arg0)) (m ((c : Thread nD τ).loc main_arg1)))
          (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.KernelIdeal.Tail.result_eq m ρ c (Region0.H (V1 m ρ) c) (Region0.colSums (V1 m ρ) c) (Region0.colSumsSq (V1 m ρ) c)
    (Region0.final_hidden (V1 m ρ) c) (Region0.final_sums (V1 m ρ) c) (Region0.final_sumsq (V1 m ρ) c)]
  unfold layer
  have hmu : (fun q => Ideal.div (Region0.colSums (V1 m ρ) c (ix2 (0 : Fin 1) q)) rows) = mean rows (Region0.H (V1 m ρ) c) :=
    funext fun q => by rw [Region0.colSums_apply]; rfl
  have hvar : (fun q => Ideal.div (Region0.colSumsSq (V1 m ρ) c (ix2 (0 : Fin 1) q)) rows
        - Ideal.div (Region0.colSums (V1 m ρ) c (ix2 (0 : Fin 1) q)) rows * Ideal.div (Region0.colSums (V1 m ρ) c (ix2 (0 : Fin 1) q)) rows)
      = varOfMoments rows (Region0.H (V1 m ρ) c) :=
    funext fun q => by rw [Region0.colSums_apply, Region0.colSumsSq_apply]; rfl
  rw [hmu, hvar, hidden_eq]

/-- THE RUN: every weakly fair execution terminates without a fault, the result array at `layer varOfMoments` of the
    argument arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v25)
        = layer varOfMoments (m ((c : Thread nD τ).loc main_arg0)) (neighbourSum (m ((c : Thread nD τ).loc main_arg0)) (m ((c : Thread nD τ).loc main_arg1)))
            (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => ⟨((h c).1).trans (result_value m ρ c), (h c).2⟩)
    (Cert.KernelIdeal.Run.run_result (F := Ideal) m ρ)

end Cert.KernelIdeal.KValue
end
-- ==== Proof.RefRun.lean ====
/-
  The reference program's @main as one straight line of eighty host operations — the three outlined functions
  (the rectifier twice, the variance once, and inside it the selection) written out at their call sites over each
  call's own buffers — and its run: from any memory with zero counters every weakly fair execution terminates, and
  every buffer ends holding what the operations, applied in order, leave there.

  The line is also cut into four consecutive stages, for reading its value stage by stage:
    1. the neighbour sums (two slices of the edge list, the negative-index wrap, the row gather, the add-scatter);
    2. the hidden matrix (scale by one, add the neighbour sums, two dense layers with a rectifier between);
    3. the column mean and the variance of the hidden matrix;
    4. normalize, scale, shift, rectify, and add the input back.
-/
import proofs.«159342_j43061342110476_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's eighty operations, in order, the calls written out. -/
abbrev ops : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_1 (constant S_ .f32 0x3F800000#32),
    unary main_cst_1 main_v14 (broadcastInDim S50000x128 ![] bcast_S_S50000x128 : (⟨S_, .f32⟩ : BufTy).Contents (Elt F) → (⟨S50000x128, .f32⟩ : BufTy).Contents (Elt F)),
    binary main_v14 main_arg0 main_v15 (mulf : (⟨S50000x128, .f32⟩ : BufTy).Contents (Elt F) → (⟨S50000x128, .f32⟩ : BufTy).Contents (Elt F) → (⟨S50000x128, .f32⟩ : BufTy).Contents (Elt F)),
    binary main_v15 main_v13 main_v16 (addf : (⟨S50000x128, .f32⟩ : BufTy).Contents (Elt F) → (⟨S50000x128, .f32⟩ : BufTy).Contents (Elt F) → (⟨S50000x128, .f32⟩ : BufTy).Contents (Elt F)),
    binary main_v16 main_arg2 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v18 (broadcastInDim S1x128 ![1] bcast_S128_S1x128_1 : (⟨S128, .f32⟩ : BufTy).Contents (Elt F) → (⟨S1x128, .f32⟩ : BufTy).Contents (Elt F)),
    unary main_v18 main_v19 (broadcastInDim S50000x128 ![0, 1] bcast_S1x128_S50000x128_0_1 : (⟨S1x128, .f32⟩ : BufTy).Contents (Elt F) → (⟨S50000x128, .f32⟩ : BufTy).Contents (Elt F)),
    binary main_v17 main_v19 main_v20 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (TRef.of main_v20 : TRef sig ⟨S50000x128, .f32⟩) main_call0.v0 main_call0.v1 maximumf,
    binary main_v21 main_arg4 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)),
    nullary main_cst_2 (constant S_ .f32 0x00000000#32),
    binary main_v25 main_cst_2 main_v26 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_3 (constant S_ .f32 0x47435000#32),
    unary main_cst_3 main_v27 (broadcastInDim S128 ![] bcast_S_S128 : (⟨S_, .f32⟩ : BufTy).Contents (Elt F) → (⟨S128, .f32⟩ : BufTy).Contents (Elt F)),
    binary main_v26 main_v27 main_v28 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call1.cst (constant S_ .f32 0x00000000#32),
    TRef.binary (TRef.of main_v25 : TRef sig ⟨S50000x128, .f32⟩) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (TRef.of main_v25 : TRef sig ⟨S50000x128, .f32⟩) main_call1.v4 main_call1.v5 subf,
    TRef.binary main_call1.v5 main_call1.v5 main_call1.v6 mulf,
    TRef.unary (TRef.of main_c_4 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v28 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v25 main_v31 main_v32 (subf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v33 (broadcastInDim S128 ![] bcast_S_S128 : (⟨S_, .f32⟩ : BufTy).Contents (Elt F) → (⟨S128, .f32⟩ : BufTy).Contents (Elt F)),
    binary main_v29 main_v33 main_v34 (addf : (⟨S128, .f32⟩ : BufTy).Contents (Elt F) → (⟨S128, .f32⟩ : BufTy).Contents (Elt F) → (⟨S128, .f32⟩ : BufTy).Contents (Elt F)),
    unary main_v34 main_v35 (Host.rsqrt : (⟨S128, .f32⟩ : BufTy).Contents (Elt F) → (⟨S128, .f32⟩ : BufTy).Contents (Elt F)),
    unary main_v35 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v32 main_v37 main_v38 (mulf : (⟨S50000x128, .f32⟩ : BufTy).Contents (Elt F) → (⟨S50000x128, .f32⟩ : BufTy).Contents (Elt F) → (⟨S50000x128, .f32⟩ : BufTy).Contents (Elt F)),
    unary main_arg6 main_v39 (broadcastInDim S1x128 ![1] bcast_S128_S1x128_1 : (⟨S128, .f32⟩ : BufTy).Contents (Elt F) → (⟨S1x128, .f32⟩ : BufTy).Contents (Elt F)),
    unary main_v39 main_v40 (broadcastInDim S50000x128 ![0, 1] bcast_S1x128_S50000x128_0_1 : (⟨S1x128, .f32⟩ : BufTy).Contents (Elt F) → (⟨S50000x128, .f32⟩ : BufTy).Contents (Elt F)),
    binary main_v38 main_v40 main_v41 (mulf : (⟨S50000x128, .f32⟩ : BufTy).Contents (Elt F) → (⟨S50000x128, .f32⟩ : BufTy).Contents (Elt F) → (⟨S50000x128, .f32⟩ : BufTy).Contents (Elt F)),
    unary main_arg7 main_v42 (broadcastInDim S1x128 ![1] bcast_S128_S1x128_1 : (⟨S128, .f32⟩ : BufTy).Contents (Elt F) → (⟨S1x128, .f32⟩ : BufTy).Contents (Elt F)),
    unary main_v42 main_v43 (broadcastInDim S50000x128 ![0, 1] bcast_S1x128_S50000x128_0_1 : (⟨S1x128, .f32⟩ : BufTy).Contents (Elt F) → (⟨S50000x128, .f32⟩ : BufTy).Contents (Elt F)),
    binary main_v41 main_v43 main_v44 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (TRef.of main_v44 : TRef sig ⟨S50000x128, .f32⟩) main_call2.v0 main_call2.v1 maximumf,
    binary main_arg0 main_v45 main_v46 (addf : (⟨S50000x128, .f32⟩ : BufTy).Contents (Elt F) → (⟨S50000x128, .f32⟩ : BufTy).Contents (Elt F) → (⟨S50000x128, .f32⟩ : BufTy).Contents (Elt F)) ]

/-- Stage 1: the neighbour sums. -/
abbrev ops1 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- Stage 2: the hidden matrix. -/
abbrev ops2 : List (HloOp τ sig (Elt F)) :=
  [ nullary main_cst_1 (constant S_ .f32 0x3F800000#32),
    unary main_cst_1 main_v14 (broadcastInDim S50000x128 ![] bcast_S_S50000x128 : (⟨S_, .f32⟩ : BufTy).Contents (Elt F) → (⟨S50000x128, .f32⟩ : BufTy).Contents (Elt F)),
    binary main_v14 main_arg0 main_v15 (mulf : (⟨S50000x128, .f32⟩ : BufTy).Contents (Elt F) → (⟨S50000x128, .f32⟩ : BufTy).Contents (Elt F) → (⟨S50000x128, .f32⟩ : BufTy).Contents (Elt F)),
    binary main_v15 main_v13 main_v16 (addf : (⟨S50000x128, .f32⟩ : BufTy).Contents (Elt F) → (⟨S50000x128, .f32⟩ : BufTy).Contents (Elt F) → (⟨S50000x128, .f32⟩ : BufTy).Contents (Elt F)),
    binary main_v16 main_arg2 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v18 (broadcastInDim S1x128 ![1] bcast_S128_S1x128_1 : (⟨S128, .f32⟩ : BufTy).Contents (Elt F) → (⟨S1x128, .f32⟩ : BufTy).Contents (Elt F)),
    unary main_v18 main_v19 (broadcastInDim S50000x128 ![0, 1] bcast_S1x128_S50000x128_0_1 : (⟨S1x128, .f32⟩ : BufTy).Contents (Elt F) → (⟨S50000x128, .f32⟩ : BufTy).Contents (Elt F)),
    binary main_v17 main_v19 main_v20 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (TRef.of main_v20 : TRef sig ⟨S50000x128, .f32⟩) main_call0.v0 main_call0.v1 maximumf,
    binary main_v21 main_arg4 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)) ]

/-- Stage 3: the column mean and the variance. -/
abbrev ops3 : List (HloOp τ sig (Elt F)) :=
  [ nullary main_cst_2 (constant S_ .f32 0x00000000#32),
    binary main_v25 main_cst_2 main_v26 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_3 (constant S_ .f32 0x47435000#32),
    unary main_cst_3 main_v27 (broadcastInDim S128 ![] bcast_S_S128 : (⟨S_, .f32⟩ : BufTy).Contents (Elt F) → (⟨S128, .f32⟩ : BufTy).Contents (Elt F)),
    binary main_v26 main_v27 main_v28 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call1.cst (constant S_ .f32 0x00000000#32),
    TRef.binary (TRef.of main_v25 : TRef sig ⟨S50000x128, .f32⟩) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (TRef.of main_v25 : TRef sig ⟨S50000x128, .f32⟩) main_call1.v4 main_call1.v5 subf,
    TRef.binary main_call1.v5 main_call1.v5 main_call1.v6 mulf,
    TRef.unary (TRef.of main_c_4 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

/-- Stage 4: the normalized, rectified output plus the input. -/
abbrev ops4 : List (HloOp τ sig (Elt F)) :=
  [ unary main_v28 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v25 main_v31 main_v32 (subf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v33 (broadcastInDim S128 ![] bcast_S_S128 : (⟨S_, .f32⟩ : BufTy).Contents (Elt F) → (⟨S128, .f32⟩ : BufTy).Contents (Elt F)),
    binary main_v29 main_v33 main_v34 (addf : (⟨S128, .f32⟩ : BufTy).Contents (Elt F) → (⟨S128, .f32⟩ : BufTy).Contents (Elt F) → (⟨S128, .f32⟩ : BufTy).Contents (Elt F)),
    unary main_v34 main_v35 (Host.rsqrt : (⟨S128, .f32⟩ : BufTy).Contents (Elt F) → (⟨S128, .f32⟩ : BufTy).Contents (Elt F)),
    unary main_v35 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v32 main_v37 main_v38 (mulf : (⟨S50000x128, .f32⟩ : BufTy).Contents (Elt F) → (⟨S50000x128, .f32⟩ : BufTy).Contents (Elt F) → (⟨S50000x128, .f32⟩ : BufTy).Contents (Elt F)),
    unary main_arg6 main_v39 (broadcastInDim S1x128 ![1] bcast_S128_S1x128_1 : (⟨S128, .f32⟩ : BufTy).Contents (Elt F) → (⟨S1x128, .f32⟩ : BufTy).Contents (Elt F)),
    unary main_v39 main_v40 (broadcastInDim S50000x128 ![0, 1] bcast_S1x128_S50000x128_0_1 : (⟨S1x128, .f32⟩ : BufTy).Contents (Elt F) → (⟨S50000x128, .f32⟩ : BufTy).Contents (Elt F)),
    binary main_v38 main_v40 main_v41 (mulf : (⟨S50000x128, .f32⟩ : BufTy).Contents (Elt F) → (⟨S50000x128, .f32⟩ : BufTy).Contents (Elt F) → (⟨S50000x128, .f32⟩ : BufTy).Contents (Elt F)),
    unary main_arg7 main_v42 (broadcastInDim S1x128 ![1] bcast_S128_S1x128_1 : (⟨S128, .f32⟩ : BufTy).Contents (Elt F) → (⟨S1x128, .f32⟩ : BufTy).Contents (Elt F)),
    unary main_v42 main_v43 (broadcastInDim S50000x128 ![0, 1] bcast_S1x128_S50000x128_0_1 : (⟨S1x128, .f32⟩ : BufTy).Contents (Elt F) → (⟨S50000x128, .f32⟩ : BufTy).Contents (Elt F)),
    binary main_v41 main_v43 main_v44 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (TRef.of main_v44 : TRef sig ⟨S50000x128, .f32⟩) main_call2.v0 main_call2.v1 maximumf,
    binary main_arg0 main_v45 main_v46 (addf : (⟨S50000x128, .f32⟩ : BufTy).Contents (Elt F) → (⟨S50000x128, .f32⟩ : BufTy).Contents (Elt F) → (⟨S50000x128, .f32⟩ : BufTy).Contents (Elt F)) ]

/-- The line is its four stages one after the other. -/
theorem ops_eq : (ops : List (HloOp τ sig (Elt F))) = ops1 ++ (ops2 ++ (ops3 ++ ops4)) := rfl

/-- What the buffers hold after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- After the whole line: the fourth stage after the third after the second after the first. -/
theorem after_ops (V : Valuation τ sig (Elt F)) :
    after ops V = after ops4 (after ops3 (after ops2 (after ops1 V))) := by
  rw [ops_eq, after_append, after_append, after_append]

/-! ## The buffers a stage does not write keep their contents -/

/-- An operation that writes the one buffer `y` writes inside any list of buffers holding `y`. -/
theorem writes_sub_of_mem {Ws : List (Ref sig .tc)} {op : HloOp τ sig (Elt F)} (y : Ref sig .tc)
    (hw : op.writes = {Proc.devRef (τ := τ) .tc y}) (hy : y ∈ Ws) :
    op.writes ⊆ (Ws.map (Proc.devRef (τ := τ) .tc)).toFinset := by
  rw [hw, Finset.singleton_subset_iff, List.mem_toFinset]
  exact List.mem_map_of_mem hy

/-- The buffers stage 1 writes, in order. -/
abbrev writes1 : List (Ref sig .tc) :=
  [main_v0, main_v1, main_v2, main_v3, main_c, main_v4, main_v5, main_c_0, main_v6, main_v7, main_v8, main_v9, main_v10, main_cst, main_v11, main_v12, main_v13]

theorem ops1_writes : (ops1 : List (HloOp τ sig (Elt F))).Forall fun op =>
    op.writes ⊆ (writes1.map (Proc.devRef (τ := τ) .tc)).toFinset :=
  ⟨writes_sub_of_mem main_v0 rfl (by decide),
    writes_sub_of_mem main_v1 rfl (by decide),
    writes_sub_of_mem main_v2 rfl (by decide),
    writes_sub_of_mem main_v3 rfl (by decide),
    writes_sub_of_mem main_c rfl (by decide),
    writes_sub_of_mem main_v4 rfl (by decide),
    writes_sub_of_mem main_v5 rfl (by decide),
    writes_sub_of_mem main_c_0 rfl (by decide),
    writes_sub_of_mem main_v6 rfl (by decide),
    writes_sub_of_mem main_v7 rfl (by decide),
    writes_sub_of_mem main_v8 rfl (by decide),
    writes_sub_of_mem main_v9 rfl (by decide),
    writes_sub_of_mem main_v10 rfl (by decide),
    writes_sub_of_mem main_cst rfl (by decide),
    writes_sub_of_mem main_v11 rfl (by decide),
    writes_sub_of_mem main_v12 rfl (by decide),
    writes_sub_of_mem main_v13 rfl (by decide)⟩

/-- A buffer stage 1 does not write holds after it what it held before. -/
theorem keep1 (W : Valuation τ sig (Elt F)) (r : Ref sig .tc) (hr : r ∉ writes1) :
    after ops1 W (r : DevRef τ sig) = W (r : DevRef τ sig) :=
  after_of_writes_sub ops1 W ops1_writes hr

/-- The buffers stage 2 writes, in order. -/
abbrev writes2 : List (Ref sig .tc) :=
  [main_cst_1, main_v14, main_v15, main_v16, main_v17, main_v18, main_v19, main_v20, main_call0_cst, main_call0_v0, main_v21, main_v22, main_v23, main_v24, main_v25]

theorem ops2_writes : (ops2 : List (HloOp τ sig (Elt F))).Forall fun op =>
    op.writes ⊆ (writes2.map (Proc.devRef (τ := τ) .tc)).toFinset :=
  ⟨writes_sub_of_mem main_cst_1 rfl (by decide),
    writes_sub_of_mem main_v14 rfl (by decide),
    writes_sub_of_mem main_v15 rfl (by decide),
    writes_sub_of_mem main_v16 rfl (by decide),
    writes_sub_of_mem main_v17 rfl (by decide),
    writes_sub_of_mem main_v18 rfl (by decide),
    writes_sub_of_mem main_v19 rfl (by decide),
    writes_sub_of_mem main_v20 rfl (by decide),
    writes_sub_of_mem main_call0_cst rfl (by decide),
    writes_sub_of_mem main_call0_v0 rfl (by decide),
    writes_sub_of_mem main_v21 rfl (by decide),
    writes_sub_of_mem main_v22 rfl (by decide),
    writes_sub_of_mem main_v23 rfl (by decide),
    writes_sub_of_mem main_v24 rfl (by decide),
    writes_sub_of_mem main_v25 rfl (by decide)⟩

/-- A buffer stage 2 does not write holds after it what it held before. -/
theorem keep2 (W : Valuation τ sig (Elt F)) (r : Ref sig .tc) (hr : r ∉ writes2) :
    after ops2 W (r : DevRef τ sig) = W (r : DevRef τ sig) :=
  after_of_writes_sub ops2 W ops2_writes hr

/-- The buffers stage 3 writes, in order. -/
abbrev writes3 : List (Ref sig .tc) :=
  [main_cst_2, main_v26, main_cst_3, main_v27, main_v28, main_c_4, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v29]

theorem ops3_writes : (ops3 : List (HloOp τ sig (Elt F))).Forall fun op =>
    op.writes ⊆ (writes3.map (Proc.devRef (τ := τ) .tc)).toFinset :=
  ⟨writes_sub_of_mem main_cst_2 rfl (by decide),
    writes_sub_of_mem main_v26 rfl (by decide),
    writes_sub_of_mem main_cst_3 rfl (by decide),
    writes_sub_of_mem main_v27 rfl (by decide),
    writes_sub_of_mem main_v28 rfl (by decide),
    writes_sub_of_mem main_c_4 rfl (by decide),
    writes_sub_of_mem main_call1_cst rfl (by decide),
    writes_sub_of_mem main_call1_v0 rfl (by decide),
    writes_sub_of_mem main_call1_v1 rfl (by decide),
    writes_sub_of_mem main_call1_cst_0 rfl (by decide),
    writes_sub_of_mem main_call1_v2 rfl (by decide),
    writes_sub_of_mem main_call1_v3 rfl (by decide),
    writes_sub_of_mem main_call1_v4 rfl (by decide),
    writes_sub_of_mem main_call1_v5 rfl (by decide),
    writes_sub_of_mem main_call1_v6 rfl (by decide),
    writes_sub_of_mem main_call1_v7 rfl (by decide),
    writes_sub_of_mem main_call1_cst_1 rfl (by decide),
    writes_sub_of_mem main_call1_v8 rfl (by decide),
    writes_sub_of_mem main_call1_cst_2 rfl (by decide),
    writes_sub_of_mem main_call1_v9 rfl (by decide),
    writes_sub_of_mem main_call1_v10 rfl (by decide),
    writes_sub_of_mem main_call1_v11 rfl (by decide),
    writes_sub_of_mem main_call1_cst_3 rfl (by decide),
    writes_sub_of_mem main_call1_v12 rfl (by decide),
    writes_sub_of_mem main_call1_cst_4 rfl (by decide),
    writes_sub_of_mem main_call1_call0_v0 rfl (by decide),
    writes_sub_of_mem main_call1_call0_v1 rfl (by decide),
    writes_sub_of_mem main_v29 rfl (by decide)⟩

/-- A buffer stage 3 does not write holds after it what it held before. -/
theorem keep3 (W : Valuation τ sig (Elt F)) (r : Ref sig .tc) (hr : r ∉ writes3) :
    after ops3 W (r : DevRef τ sig) = W (r : DevRef τ sig) :=
  after_of_writes_sub ops3 W ops3_writes hr

/-- The buffers stage 4 writes, in order. -/
abbrev writes4 : List (Ref sig .tc) :=
  [main_v30, main_v31, main_v32, main_cst_5, main_v33, main_v34, main_v35, main_v36, main_v37, main_v38, main_v39, main_v40, main_v41, main_v42, main_v43, main_v44, main_call2_cst, main_call2_v0, main_v45, main_v46]

theorem ops4_writes : (ops4 : List (HloOp τ sig (Elt F))).Forall fun op =>
    op.writes ⊆ (writes4.map (Proc.devRef (τ := τ) .tc)).toFinset :=
  ⟨writes_sub_of_mem main_v30 rfl (by decide),
    writes_sub_of_mem main_v31 rfl (by decide),
    writes_sub_of_mem main_v32 rfl (by decide),
    writes_sub_of_mem main_cst_5 rfl (by decide),
    writes_sub_of_mem main_v33 rfl (by decide),
    writes_sub_of_mem main_v34 rfl (by decide),
    writes_sub_of_mem main_v35 rfl (by decide),
    writes_sub_of_mem main_v36 rfl (by decide),
    writes_sub_of_mem main_v37 rfl (by decide),
    writes_sub_of_mem main_v38 rfl (by decide),
    writes_sub_of_mem main_v39 rfl (by decide),
    writes_sub_of_mem main_v40 rfl (by decide),
    writes_sub_of_mem main_v41 rfl (by decide),
    writes_sub_of_mem main_v42 rfl (by decide),
    writes_sub_of_mem main_v43 rfl (by decide),
    writes_sub_of_mem main_v44 rfl (by decide),
    writes_sub_of_mem main_call2_cst rfl (by decide),
    writes_sub_of_mem main_call2_v0 rfl (by decide),
    writes_sub_of_mem main_v45 rfl (by decide),
    writes_sub_of_mem main_v46 rfl (by decide)⟩

/-- A buffer stage 4 does not write holds after it what it held before. -/
theorem keep4 (W : Valuation τ sig (Elt F)) (r : Ref sig .tc) (hr : r ∉ writes4) :
    after ops4 W (r : DevRef τ sig) = W (r : DevRef τ sig) :=
  after_of_writes_sub ops4 W ops4_writes hr

/-- A buffer no stage writes holds after the whole line what it held before. -/
theorem keep (V : Valuation τ sig (Elt F)) (r : Ref sig .tc) (h1 : r ∉ writes1) (h2 : r ∉ writes2) (h3 : r ∉ writes3)
    (h4 : r ∉ writes4) : after ops V (r : DevRef τ sig) = V (r : DevRef τ sig) := by
  rw [after_ops, keep4 _ r h4, keep3 _ r h3, keep2 _ r h2, keep1 _ r h1]

set_option maxRecDepth 8192 in
/-- @main is that straight line: with the outlined functions unfolded at their calls, both sides are the same chain of
    steps by computation. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

/-- On every device, for any float values, from any memory with zero counters: every weakly fair execution of
    @main terminates, and every buffer ends at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefConsts.lean ====
/-
  The f32 words of the reference's variance, as the extended reals they denote: the word the column sums are divided
  by is the real number 50000 (sign 0, exponent 142, mantissa 0x435000: 2^15 · 1.52587890625), the all-zero word is 0,
  so the count "50000 minus the integer 0 converted" is 50000 and is greater than zero.
-/
import Idealize.ShloMosaic.PureOps.Ideal.Laws

noncomputable section

namespace Cert.ReferenceIdeal.RefConsts

open Idealize.ShloMosaic

/-- The word 0x47435000 denotes the real number 50000. -/
theorem ofBits_rows : Ideal.ofBits .f32 0x47435000#32 = ((50000 : ℝ) : EReal) := by
  simp [Ideal.ofBits, Ideal.ieee, -EReal.coe_mul]; norm_num

/-- The integer word 0, converted to a float, is the real number 0: subtracting it changes nothing. -/
theorem sub_sitofp_zero (a : EReal) : a - ((((0#32 : BitVec 32).toInt : ℤ) : ℝ) : EReal) = a := by
  simp

/-- 50000 is greater than 0, as words: the comparison answers the bit 1. -/
theorem cmp_rows_pos : Ideal.cmp .ogt (Ideal.ofBits .f32 0x47435000#32) (Ideal.ofBits .f32 0x00000000#32) = 1#1 := by
  have h : (0 : EReal) < Ideal.ofBits .f32 0x47435000#32 := by
    rw [ofBits_rows]
    exact_mod_cast (by norm_num : (0 : ℝ) < 50000)
  simp [Ideal.cmp, h]

end Cert.ReferenceIdeal.RefConsts

end
-- ==== Proof.RefMath.lean ====
/-
  The four stages of the reference's straight line as functions of their inputs — each the host operations' own
  composed term — and each stage's meaning in the shared vocabulary of the layer:
    the hidden matrix is `hidden` with the word 1.0;
    the column means are `mean` with the word 50000.0: an add-reduction over the rows from the zero word is the
      column's sum, and dividing it by the word repeated over the columns divides each sum by it;
    the variance function computes the mean again, the deviations from it, their squares' column sums, and divides
      by 50000.0 minus the integer 0 converted, which is 50000.0; being greater than zero, the selection keeps the
      quotient and not the not-a-number word: `varOfDeviations`;
    the last stage is `output` with the added epsilon word.
-/
import proofs.«159342_j43061342110476_1_alg».proof.Proof.Gen.ReferenceIdeal
import proofs.«159342_j43061342110476_1_alg».proof.Proof.Spec
import proofs.«159342_j43061342110476_1_alg».proof.Proof.RefConsts
import Idealize.ShloMosaic.Lib.Pipeline.Value

noncomputable section

namespace Cert.ReferenceIdeal.RefValue

open Cert.ReferenceIdeal Cert.ReferenceIdeal.Gen Idealize.ShloMosaic Idealize.ShloMosaic.ValueIdx Cert.Layers Cert.GraphNorm

/-- the neighbour sums as the reference's first host operations (%0 .. %13: two slices and reshapes of the edge list, the
    negative-index wrap, the row gather, the zero matrix, the add-scatter) compute them -/
def neighbourSum (x : FVec Ideal S50000x128 .f32) (ei : IVec S2x600000 32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0
      (shapeCast S600000 (extractStridedSlice S1x600000 ![1, 0] ei slices_S2x600000_S1x600000_1_0) shapeCasts_S1x600000_S600000))
    (Host.gather gather_S50000x128_S600000x1_S600000x128_1_0_n_n_0_1_1128 x
      (broadcastInDim S600000x1 ![0] bcast_S600000_S600000x1_0
        (select
          (cmpi .slt
            (shapeCast S600000 (extractStridedSlice S1x600000 ![0, 0] ei slices_S2x600000_S1x600000_0_0) shapeCasts_S1x600000_S600000)
            (broadcastInDim S600000 ![] bcast_S_S600000 (constantI S_ 32 0#32)))
          (addi
            (shapeCast S600000 (extractStridedSlice S1x600000 ![0, 0] ei slices_S2x600000_S1x600000_0_0) shapeCasts_S1x600000_S600000)
            (broadcastInDim S600000 ![] bcast_S_S600000 (constantI S_ 32 50000#32)))
          (shapeCast S600000 (extractStridedSlice S1x600000 ![0, 0] ei slices_S2x600000_S1x600000_0_0) shapeCasts_S1x600000_S600000))))

/-- the hidden matrix as the host operations %14 .. %25 compute it from the features, the neighbour sums, the two weights and
    the two biases -/
def hiddenHost (x agg : FVec Ideal S50000x128 .f32) (w1 : FVec Ideal S128x128 .f32) (b1 : FVec Ideal S128 .f32)
    (w2 : FVec Ideal S128x128 .f32) (b2 : FVec Ideal S128 .f32) : FVec Ideal S50000x128 .f32 :=
  addf
    (Host.dotGeneral (F := Ideal) dot_S50000x128_S128x128_S50000x128_1_0_0_1_n_n none
      (maximumf
        (addf
          (Host.dotGeneral (F := Ideal) dot_S50000x128_S128x128_S50000x128_1_0_0_1_n_n none
            (addf (mulf (broadcastInDim S50000x128 ![] bcast_S_S50000x128 (constant (F := Ideal) S_ .f32 0x3F800000#32)) x) agg) w1)
          (broadcastInDim S50000x128 ![0, 1] bcast_S1x128_S50000x128_0_1 (broadcastInDim S1x128 ![1] bcast_S128_S1x128_1 b1)))
        (broadcastInDim S50000x128 ![] bcast_S_S50000x128 (constant (F := Ideal) S_ .f32 0x00000000#32)))
      w2)
    (broadcastInDim S50000x128 ![0, 1] bcast_S1x128_S50000x128_0_1 (broadcastInDim S1x128 ![1] bcast_S128_S1x128_1 b2))

/-- the column means as the host operations %26 .. %28 compute them: the add-reduction over the rows from the zero word,
    divided by the word 50000.0 repeated over the columns -/
def meanHost (h : FVec Ideal S50000x128 .f32) : FVec Ideal S128 .f32 :=
  Host.divf (F := Ideal)
    (Host.reduceAdd (F := Ideal) h (constant (F := Ideal) S_ .f32 0x00000000#32) reducesTo_S50000x128_S128_d0 h_S_)
    (broadcastInDim S128 ![] bcast_S_S128 (constant (F := Ideal) S_ .f32 0x47435000#32))

/-- the count the variance function divides by: the word 50000.0 minus the integer word 0 converted to a float -/
def countHost : FVec Ideal S_ .f32 :=
  subf (constant (F := Ideal) S_ .f32 0x47435000#32) (sitofp (F := Ideal) .f32 (constantI S_ 32 0#32))

/-- the column means as the variance function computes them again: the column sums laid out as one row, divided by the
    word 50000.0 repeated along it -/
def meanRowHost (h : FVec Ideal S50000x128 .f32) : FVec Ideal S1x128 .f32 :=
  Host.divf (F := Ideal)
    (broadcastInDim S1x128 ![1] bcast_S128_S1x128_1
      (Host.reduceAdd (F := Ideal) h (constant (F := Ideal) S_ .f32 0x00000000#32) reducesTo_S50000x128_S128_d0 h_S_))
    (broadcastInDim S1x128 ![] bcast_S_S1x128 (constant (F := Ideal) S_ .f32 0x47435000#32))

/-- the deviations from the column means, as the variance function computes them: that row repeated down the rows and
    subtracted -/
def devHost (h : FVec Ideal S50000x128 .f32) : FVec Ideal S50000x128 .f32 :=
  subf h (broadcastInDim S50000x128 ![0, 1] bcast_S1x128_S50000x128_0_1 (meanRowHost h))

/-- the column variances as the variance function computes them: the squared deviations' column sums over the count,
    selected against the not-a-number word by whether the count is greater than zero -/
def varHost (h : FVec Ideal S50000x128 .f32) : FVec Ideal S128 .f32 :=
  select
    (broadcastInDim S128 ![] bcast_S_S128 (cmpf .ogt countHost (constant (F := Ideal) S_ .f32 0x00000000#32)))
    (Host.divf (F := Ideal)
      (Host.reduceAdd (F := Ideal) (mulf (devHost h) (devHost h)) (constant (F := Ideal) S_ .f32 0x00000000#32)
        reducesTo_S50000x128_S128_d0 h_S_)
      (broadcastInDim S128 ![] bcast_S_S128 countHost))
    (broadcastInDim S128 ![] bcast_S_S128 (constant (F := Ideal) S_ .f32 0x7FC00000#32))

/-- the result as the host operations %30 .. %46 compute it from the features, the hidden matrix, its column means and
    variances, the scale and the shift -/
def outputHost (x h : FVec Ideal S50000x128 .f32) (mu var gamma beta : FVec Ideal S128 .f32) : FVec Ideal S50000x128 .f32 :=
  addf x
    (maximumf
      (addf
        (mulf
          (mulf
            (subf h (broadcastInDim S50000x128 ![0, 1] bcast_S1x128_S50000x128_0_1 (broadcastInDim S1x128 ![1] bcast_S128_S1x128_1 mu)))
            (broadcastInDim S50000x128 ![0, 1] bcast_S1x128_S50000x128_0_1
              (broadcastInDim S1x128 ![1] bcast_S128_S1x128_1
                (Host.rsqrt (F := Ideal)
                  (addf var (broadcastInDim S128 ![] bcast_S_S128 (constant (F := Ideal) S_ .f32 0x3727C5AC#32)))))))
          (broadcastInDim S50000x128 ![0, 1] bcast_S1x128_S50000x128_0_1 (broadcastInDim S1x128 ![1] bcast_S128_S1x128_1 gamma)))
        (broadcastInDim S50000x128 ![0, 1] bcast_S1x128_S50000x128_0_1 (broadcastInDim S1x128 ![1] bcast_S128_S1x128_1 beta)))
      (broadcastInDim S50000x128 ![] bcast_S_S50000x128 (constant (F := Ideal) S_ .f32 0x00000000#32)))

/-! ## The hidden matrix -/

theorem hiddenHost_eq (x agg : FVec Ideal S50000x128 .f32) (w1 : FVec Ideal S128x128 .f32) (b1 : FVec Ideal S128 .f32)
    (w2 : FVec Ideal S128x128 .f32) (b2 : FVec Ideal S128 .f32) :
    hiddenHost x agg w1 b1 w2 b2 = hidden one x agg w1 b1 w2 b2 := by
  unfold hiddenHost
  rw [hostMm_eq dot_S50000x128_S128x128_S50000x128_1_0_0_1_n_n dot_S50000x128_S128x128_S50000x128_1_0_0_1_n_n_wf rfl,
    hostMm_eq dot_S50000x128_S128x128_S50000x128_1_0_0_1_n_n dot_S50000x128_S128x128_S50000x128_1_0_0_1_n_n_wf rfl,
    hostBias_eq, hostBias_eq, hostRect_eq]
  rfl

/-! ## Layouts read at an entry -/

/-- One row repeated down m rows: entry (p, q) is the row's entry q. -/
theorem rowDown_apply {α : Type} {m n : Nat}
    (h2 : (⟨2, ![1, n]⟩ : Shape).BroadcastsInDim ⟨2, ![m, n]⟩ ![0, 1]) (y : (⟨2, ![1, n]⟩ : Shape).Idx → α) (p : Fin m) (q : Fin n) :
    broadcastInDim ⟨2, ![m, n]⟩ ![0, 1] h2 y (ix2 p q) = y (ix2 (0 : Fin 1) q) :=
  broadcastInDim_apply _ h2 y (ix2 p q) (ix2 (0 : Fin 1) q) fun ax => by
    match ax with
    | ⟨0, _⟩ => show (0 : Nat) = if (1 : Nat) = 1 then 0 else p.val; rw [if_pos rfl]
    | ⟨1, _⟩ => show q.val = if n = 1 then 0 else q.val; split_ifs with h <;> omega

/-- A vector laid out as one row: the row's entry q is the vector's. -/
theorem vecAsRow_apply {α : Type} {n : Nat}
    (h1 : (⟨1, ![n]⟩ : Shape).BroadcastsInDim ⟨2, ![1, n]⟩ ![1]) (v : (⟨1, ![n]⟩ : Shape).Idx → α) (q : Fin n) :
    broadcastInDim ⟨2, ![1, n]⟩ ![1] h1 v (ix2 (0 : Fin 1) q) = v (ix1 q) :=
  broadcastInDim_apply _ h1 v (ix2 (0 : Fin 1) q) (ix1 q) fun ax => by
    match ax with
    | ⟨0, _⟩ => show q.val = if n = 1 then 0 else q.val; split_ifs with h <;> omega

/-! ## The column statistics -/

/-- The add-reduction over the rows, from the zero word, read at column q: the column's sum. -/
theorem reduceRows_apply (h : FVec Ideal S50000x128 .f32) (q : Fin 128) :
    Host.reduceAdd (F := Ideal) h (constant (F := Ideal) S_ .f32 0x00000000#32) reducesTo_S50000x128_S128_d0 h_S_ (ix1 q)
      = colSum h q := by
  have hR : S50000x128.Reduces [0] S128 := by decide
  refine (Ideal.hostReduceAdd_single reducesTo_S50000x128_S128_d0 hR h _ (ix1 q)).trans ?_
  show Ideal.ofBits .f32 0x00000000#32 + _ = _
  rw [Ideal.ofBits_zero_f32, zero_add]
  refine Finset.sum_congr rfl fun k _ => congrArg h (funext fun d => Fin.ext ?_)
  match d with
  | ⟨0, _⟩ => rfl
  | ⟨1, _⟩ => rfl

/-- The host's column mean at column q is the sum of the column over the word 50000.0. -/
theorem meanHost_apply (h : FVec Ideal S50000x128 .f32) (q : Fin 128) : meanHost h (ix1 q) = mean rows h q := by
  show Ideal.div (Host.reduceAdd (F := Ideal) h (constant (F := Ideal) S_ .f32 0x00000000#32) reducesTo_S50000x128_S128_d0 h_S_ (ix1 q))
      (Ideal.ofBits .f32 0x47435000#32) = _
  rw [reduceRows_apply]
  rfl

/-- The mean taken again, as one row, at column q: the sum of the column over the word 50000.0. -/
theorem meanRowHost_apply (h : FVec Ideal S50000x128 .f32) (q : Fin 128) :
    meanRowHost h (ix2 (0 : Fin 1) q) = mean rows h q := by
  show Ideal.div
      (broadcastInDim S1x128 ![1] bcast_S128_S1x128_1
        (Host.reduceAdd (F := Ideal) h (constant (F := Ideal) S_ .f32 0x00000000#32) reducesTo_S50000x128_S128_d0 h_S_)
        (ix2 (0 : Fin 1) q))
      (Ideal.ofBits .f32 0x47435000#32) = _
  rw [vecAsRow_apply, reduceRows_apply]
  rfl

/-- The deviation at (p, q) is the entry minus the column's mean. -/
theorem devHost_apply (h : FVec Ideal S50000x128 .f32) (p : Fin 50000) (q : Fin 128) :
    devHost h (ix2 p q) = h (ix2 p q) - mean rows h q := by
  show h (ix2 p q) - broadcastInDim S50000x128 ![0, 1] bcast_S1x128_S50000x128_0_1 (meanRowHost h) (ix2 p q) = _
  rw [rowDown_apply, meanRowHost_apply]

/-- The count is the word 50000.0. -/
theorem countHost_apply (i : S_.Idx) : countHost i = rows :=
  RefConsts.sub_sitofp_zero _

/-- The variance function's value at column q is the mean squared deviation. -/
theorem varHost_apply (h : FVec Ideal S50000x128 .f32) (q : Fin 128) : varHost h (ix1 q) = varOfDeviations rows h q := by
  show Scalar.select (Ideal.cmp .ogt (countHost _) (Ideal.ofBits .f32 0x00000000#32))
      (Ideal.div (Host.reduceAdd (F := Ideal) (mulf (devHost h) (devHost h)) (constant (F := Ideal) S_ .f32 0x00000000#32)
        reducesTo_S50000x128_S128_d0 h_S_ (ix1 q)) (countHost _)) (Ideal.ofBits .f32 0x7FC00000#32) = _
  rw [countHost_apply, RefConsts.cmp_rows_pos, reduceRows_apply]
  show Ideal.div (colSum (mulf (devHost h) (devHost h)) q) rows = _
  unfold varOfDeviations colSum
  refine congrArg (Ideal.div · rows) (Finset.sum_congr rfl fun p _ => ?_)
  show devHost h (ix2 p q) * devHost h (ix2 p q) = _
  rw [devHost_apply]

/-! ## The output -/

theorem outputHost_eq (x h : FVec Ideal S50000x128 .f32) (mu var gamma beta : FVec Ideal S128 .f32) :
    outputHost x h mu var gamma beta
      = output eps x h (fun q => mu (ix1 q)) (fun q => var (ix1 q)) gamma beta := by
  unfold outputHost
  rw [hostBias_eq, hostBias_eq, hostBias_eq, hostBias_eq, hostRect_eq]
  rfl

/-- The last stage on the host's own mean and variance of the hidden matrix is the layer's output. -/
theorem outputHost_stats (x h : FVec Ideal S50000x128 .f32) (gamma beta : FVec Ideal S128 .f32) :
    outputHost x h (meanHost h) (varHost h) gamma beta
      = output eps x h (mean rows h) (varOfDeviations rows h) gamma beta := by
  rw [outputHost_eq, funext (meanHost_apply h), funext (varHost_apply h)]

end Cert.ReferenceIdeal.RefValue

end
-- ==== Proof.RefRead.lean ====
/-
  What the reference's buffers hold after each of the four stages of its straight line, read back from the
  operations: stage by stage the result buffer holds the stage's host term of the buffers the stage reads.
-/
import proofs.«159342_j43061342110476_1_alg».proof.Proof.RefRun
import proofs.«159342_j43061342110476_1_alg».proof.Proof.RefMath

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

-- the folds over the rows and the edges stay closed while the two sides are compared
attribute [local irreducible] Host.gather Host.scatterAdd Host.reduceAdd

/-- After stage 1 the scatter's result buffer holds the neighbour sums of the features and the edge list. -/
theorem stage1_v13 (W : Valuation τ sig (Elt Ideal)) :
    after (ops1 (F := Ideal)) W (main_v13 : DevRef τ sig)
      = neighbourSum (W (main_arg0 : DevRef τ sig)) (W (main_arg1 : DevRef τ sig)) := by
  after_results_simp
  rfl

/-- After stage 2 the second layer's result buffer holds the hidden matrix's host term. -/
theorem stage2_v25 (W : Valuation τ sig (Elt Ideal)) :
    after (ops2 (F := Ideal)) W (main_v25 : DevRef τ sig)
      = hiddenHost (W (main_arg0 : DevRef τ sig)) (W (main_v13 : DevRef τ sig)) (W (main_arg2 : DevRef τ sig))
          (W (main_arg3 : DevRef τ sig)) (W (main_arg4 : DevRef τ sig)) (W (main_arg5 : DevRef τ sig)) := by
  after_results_simp
  rfl

/-- After stage 3 the mean's buffer holds the host's column means of the hidden matrix. -/
theorem stage3_v28 (W : Valuation τ sig (Elt Ideal)) :
    after (ops3 (F := Ideal)) W (main_v28 : DevRef τ sig) = meanHost (W (main_v25 : DevRef τ sig)) := by
  after_results_simp
  rfl

/-- After stage 3 the variance function's result buffer holds the host's column variances of the hidden matrix. -/
theorem stage3_v29 (W : Valuation τ sig (Elt Ideal)) :
    after (ops3 (F := Ideal)) W (main_v29 : DevRef τ sig) = varHost (W (main_v25 : DevRef τ sig)) := by
  after_results_simp
  rfl

/-- After stage 4 the result buffer holds the last stage's host term. -/
theorem stage4_v46 (W : Valuation τ sig (Elt Ideal)) :
    after (ops4 (F := Ideal)) W (main_v46 : DevRef τ sig)
      = outputHost (W (main_arg0 : DevRef τ sig)) (W (main_v25 : DevRef τ sig)) (W (main_v28 : DevRef τ sig))
          (W (main_v29 : DevRef τ sig)) (W (main_arg6 : DevRef τ sig)) (W (main_arg7 : DevRef τ sig)) := by
  after_results_simp
  rfl

end Cert.ReferenceIdeal.RefValue

end
-- ==== Proof.RefValue.lean ====
/-
  The reference program's run and value: from any memory with zero counters every weakly fair execution of @main
  terminates with the result buffer holding the graph layer — the output of the hidden matrix of the features and
  their neighbour sums, normalized by its column means and its mean squared deviations — and the eight arguments
  unchanged.

  The value is the four stages chained: each stage reads the buffers the earlier ones left (a buffer a stage does
  not write keeps its contents), and each stage's host term is the layer's own function of its inputs.
-/
import proofs.«159342_j43061342110476_1_alg».proof.Proof.RefRun
import proofs.«159342_j43061342110476_1_alg».proof.Proof.RefMath
import proofs.«159342_j43061342110476_1_alg».proof.Proof.RefRead

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-- After the whole line the result buffer holds the layer of the arguments' contents, the variance taken as the mean
    squared deviation. -/
theorem value (V : Valuation τ sig (Elt Ideal)) :
    after (ops (F := Ideal)) V (main_v46 : DevRef τ sig)
      = Cert.GraphNorm.layer Cert.GraphNorm.varOfDeviations (V (main_arg0 : DevRef τ sig))
          (neighbourSum (V (main_arg0 : DevRef τ sig)) (V (main_arg1 : DevRef τ sig)))
          (V (main_arg2 : DevRef τ sig)) (V (main_arg3 : DevRef τ sig)) (V (main_arg4 : DevRef τ sig))
          (V (main_arg5 : DevRef τ sig)) (V (main_arg6 : DevRef τ sig)) (V (main_arg7 : DevRef τ sig)) := by
  unfold Cert.GraphNorm.layer
  rw [after_ops, stage4_v46,
    keep3 _ main_arg0 (by decide), keep3 _ main_v25 (by decide), keep3 _ main_arg6 (by decide), keep3 _ main_arg7 (by decide),
    stage3_v28, stage3_v29,
    keep2 _ main_arg0 (by decide), keep2 _ main_arg6 (by decide), keep2 _ main_arg7 (by decide), stage2_v25,
    keep1 _ main_arg0 (by decide), keep1 _ main_arg2 (by decide), keep1 _ main_arg3 (by decide), keep1 _ main_arg4 (by decide),
    keep1 _ main_arg5 (by decide), keep1 _ main_arg6 (by decide), keep1 _ main_arg7 (by decide), stage1_v13,
    hiddenHost_eq, outputHost_stats]

/-- On every device, from any memory with zero counters: every weakly fair execution of @main terminates with the
    result buffer at the layer of the arguments' launch contents and the eight arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread Cert.ReferenceIdeal.nD Cert.ReferenceIdeal.τ).loc Cert.ReferenceIdeal.main_v46)
        = Cert.GraphNorm.layer Cert.GraphNorm.varOfDeviations
            (m ((c.tc : Thread Cert.ReferenceIdeal.nD Cert.ReferenceIdeal.τ).loc Cert.ReferenceIdeal.main_arg0))
            (neighbourSum (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1)))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run defs _ _).mono (fun _ h c => ⟨(h c main_v46).trans (value (launchContents m c)),
      (h c main_arg0).trans (keep _ main_arg0 (by decide) (by decide) (by decide) (by decide)),
      (h c main_arg1).trans (keep _ main_arg1 (by decide) (by decide) (by decide) (by decide)),
      (h c main_arg2).trans (keep _ main_arg2 (by decide) (by decide) (by decide) (by decide)),
      (h c main_arg3).trans (keep _ main_arg3 (by decide) (by decide) (by decide) (by decide)),
      (h c main_arg4).trans (keep _ main_arg4 (by decide) (by decide) (by decide) (by decide)),
      (h c main_arg5).trans (keep _ main_arg5 (by decide) (by decide) (by decide) (by decide)),
      (h c main_arg6).trans (keep _ main_arg6 (by decide) (by decide) (by decide) (by decide)),
      (h c main_arg7).trans (keep _ main_arg7 (by decide) (by decide) (by decide) (by decide))⟩)
    (run_all m ρ)

end Cert.ReferenceIdeal.RefValue

end
-- ==== Proof.Consts.lean ====
/-
  The literal f32 words both programs spell, as the extended reals they denote, and the one fact about the coercion
  of the reals into the extended reals that Mathlib lacks here: it commutes with finite sums.

  An f32 word with sign 0, exponent field e (neither 0 nor 255) and mantissa field t denotes (2^23 + t) * 2^(e - 150).
    0x3F800000: e = 127, t = 0:          2^23 * 2^(-23) = 1.
    0x47435000: e = 142, t = 0x435000:   (2^23 + 4411392) * 2^(-8) = 12800000 / 256 = 50000.
-/
import Idealize.ShloMosaic.PureOps.Ideal
import Idealize.ShloMosaic.Lib.ValueIdx
import proofs.«159342_j43061342110476_1_alg».proof.Proof.Spec

noncomputable section

namespace Cert.GraphNorm

open Idealize.ShloMosaic

/-- The word 0x47435000: sign 0, exponent 142, mantissa 0x435000, that is 2^15 * 1.52587890625 = 50000. -/
theorem rows_eq : rows = ((50000 : ℝ) : EReal) := by
  simp [Ideal.ofBits, Ideal.ieee, -EReal.coe_mul]; norm_num

/-- The word 0x3F800000 is 1. -/
theorem one_eq : one = ((1 : ℝ) : EReal) := by
  simp [Ideal.ofBits, Ideal.ieee, -EReal.coe_mul]; norm_num

/-- The all-zero word is the real 0. -/
theorem zero_eq : Ideal.ofBits .f32 0x00000000#32 = ((0 : ℝ) : EReal) := by
  rw [Ideal.ofBits_zero_f32, EReal.coe_zero]

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.GraphNorm

end
-- ==== Proof.Finite.lean ====
/-
  The hidden matrix of the layer has real entries when every input has.

  The reals sit inside the extended reals closed under the operations the hidden matrix is built from: a product of
  two reals is the real product, a finite sum of reals the real sum, and the maximum of a real with 0 (the value of
  the all-zero word) the real maximum. So, entry by entry: one * x + agg is real; a dense layer a · w + b of real
  matrices is real; the rectifier of a real matrix is real; and the hidden matrix, two dense layers with a rectifier
  between them on one * x + agg, is real.
-/
import Idealize.ShloMosaic.PureOps.Ideal
import Idealize.ShloMosaic.Lib.ValueIdx
import proofs.«159342_j43061342110476_1_alg».proof.Proof.Spec
import proofs.«159342_j43061342110476_1_alg».proof.Proof.Consts

noncomputable section

namespace Cert.GraphNorm

open Idealize.ShloMosaic Idealize.ShloMosaic.ValueIdx Cert.Layers

variable {m : Nat}

/-- A real multiple of a real matrix plus a real matrix is real. -/
theorem isReal_combine (c : ℝ) (x agg : Mat m 128) (hx : IsReal x) (ha : IsReal agg) :
    IsReal (combine (c : EReal) x agg) := by
  intro i
  obtain ⟨a, ha'⟩ := hx i
  obtain ⟨b, hb'⟩ := ha i
  refine ⟨c * a + b, ?_⟩
  show (c : EReal) * x i + agg i = _
  rw [ha', hb', ← EReal.coe_mul, ← EReal.coe_add]

/-- The maximum of a real with the value 0 of the all-zero word is the real maximum. -/
theorem isReal_rect {s : Shape} (a : s.Idx → EReal) (ha : IsReal a) : IsReal (rect a) := by
  intro i
  obtain ⟨r, hr⟩ := ha i
  refine ⟨max r 0, ?_⟩
  rw [rect_apply, hr, zero_eq]
  exact (EReal.coe_strictMono.monotone.map_max).symm

/-- A dense layer of real matrices is real: each entry is a finite sum of products of reals, plus a real. -/
theorem isReal_dense {k n : Nat} (a : Mat m k) (w : Mat k n) (b : Row n) (ha : IsReal a) (hw : IsReal w)
    (hb : IsReal b) : IsReal (dense a w b) := by
  choose fa hfa using ha
  choose fw hfw using hw
  choose fb hfb using hb
  intro i
  obtain ⟨p, q, rfl⟩ : ∃ (p : Fin m) (q : Fin n), i = ix2 p q := ⟨i 0, i 1, eq_ix2 i⟩
  refine ⟨(∑ j : Fin k, fa (ix2 p j) * fw (ix2 j q)) + fb (ix1 q), ?_⟩
  rw [dense_apply, EReal.coe_add, coe_sum, hfb]
  refine congrArg₂ (· + ·) (Finset.sum_congr rfl fun j _ => ?_) rfl
  rw [hfa, hfw, EReal.coe_mul]

/-- The hidden matrix of real inputs is real. -/
theorem hidden_isReal (x agg : Mat m 128) (w1 : Mat 128 128) (b1 : Row 128) (w2 : Mat 128 128) (b2 : Row 128)
    (hx : IsReal x) (ha : IsReal agg) (hw1 : IsReal w1) (hb1 : IsReal b1) (hw2 : IsReal w2) (hb2 : IsReal b2) :
    IsReal (hidden one x agg w1 b1 w2 b2) := by
  unfold hidden
  rw [one_eq]
  exact isReal_dense _ _ _ (isReal_rect _ (isReal_dense _ _ _ (isReal_combine 1 x agg hx ha) hw1 hb1)) hw2 hb2

end Cert.GraphNorm

end
-- ==== Proof.Moments.lean ====
/-
  The two forms of a column's variance agree on real entries.

  For n real numbers f_1 … f_n with sum S and mean mu = S / n:
      sum (f_p - mu)^2  =  sum f_p^2 - 2 mu S + n mu^2  =  sum f_p^2 - S^2 / n,
  so the mean squared deviation (sum (f_p - mu)^2) / n equals the second moment minus the squared mean,
  (sum f_p^2) / n - mu * mu. The identity is proved over the reals for any n ≠ 0, then carried to the extended
  reals: a finite sum, a product, a difference of reals is the real sum, product, difference, and dividing by a
  nonzero real is multiplying by its reciprocal. The divisor both programs use is the f32 word for 50000, the
  number of rows.
-/
import Idealize.ShloMosaic.PureOps.Ideal
import Idealize.ShloMosaic.Lib.ValueIdx
import proofs.«159342_j43061342110476_1_alg».proof.Proof.Spec
import proofs.«159342_j43061342110476_1_alg».proof.Proof.Consts
import proofs.«159342_j43061342110476_1_alg».proof.Proof.Finite

noncomputable section

namespace Cert.GraphNorm

open Idealize.ShloMosaic Idealize.ShloMosaic.ValueIdx Cert.Layers

/-- Over the reals: the second moment minus the squared mean is the mean squared deviation, with division by n
    written as multiplication by 1 / n. -/
theorem real_var_forms {n : Nat} (hn : n ≠ 0) (f : Fin n → ℝ) :
    (∑ p, f p * f p) * (1 / (n : ℝ)) - ((∑ p, f p) * (1 / (n : ℝ))) * ((∑ p, f p) * (1 / (n : ℝ)))
      = (∑ p, (f p - (∑ p, f p) * (1 / (n : ℝ))) * (f p - (∑ p, f p) * (1 / (n : ℝ)))) * (1 / (n : ℝ)) := by
  have hn' : (n : ℝ) ≠ 0 := Nat.cast_ne_zero.mpr hn
  have expand : ∀ mu : ℝ,
      ∑ p, (f p - mu) * (f p - mu) = ∑ p, f p * f p - 2 * mu * ∑ p, f p + (n : ℝ) * (mu * mu) := by
    intro mu
    have sq : ∀ p, (f p - mu) * (f p - mu) = f p * f p - 2 * mu * f p + mu * mu := fun p => by ring
    simp only [sq, Finset.sum_add_distrib, Finset.sum_sub_distrib, ← Finset.mul_sum, Finset.sum_const,
      Finset.card_univ, Fintype.card_fin, nsmul_eq_mul]
    ring
  rw [expand]
  field_simp
  ring

variable {m : Nat}

/-- A column of real entries sums to the real sum. -/
theorem colSum_coe (h : Mat m 128) (f : (⟨2, ![m, 128]⟩ : Shape).Idx → ℝ) (hf : ∀ i, h i = (f i : EReal))
    (q : Fin 128) : colSum h q = ((∑ p : Fin m, f (ix2 p q) : ℝ) : EReal) := by
  rw [coe_sum]
  exact Finset.sum_congr rfl fun p _ => hf (ix2 p q)

/-- The two variances agree for a matrix of real entries with m ≠ 0 rows divided by the real number m. -/
theorem var_forms_agree_of_rows (hm : m ≠ 0) (h : Mat m 128) (hh : IsReal h) (q : Fin 128) :
    varOfMoments (((m : ℝ)) : EReal) h q = varOfDeviations (((m : ℝ)) : EReal) h q := by
  have hm' : (m : ℝ) ≠ 0 := Nat.cast_ne_zero.mpr hm
  choose f hf using hh
  have hsq : ∀ i, squares h i = ((f i * f i : ℝ) : EReal) := fun i => by
    show h i * h i = _
    rw [hf i, EReal.coe_mul]
  have hmean : mean ((m : ℝ) : EReal) h q = (((∑ p : Fin m, f (ix2 p q)) * (1 / (m : ℝ)) : ℝ) : EReal) := by
    unfold mean
    rw [Ideal.div_coe hm', colSum_coe h f hf q, ← EReal.coe_mul]
  have hdev : ∑ p : Fin m, (h (ix2 p q) - mean ((m : ℝ) : EReal) h q) * (h (ix2 p q) - mean ((m : ℝ) : EReal) h q)
      = ((∑ p : Fin m, (f (ix2 p q) - (∑ p : Fin m, f (ix2 p q)) * (1 / (m : ℝ)))
          * (f (ix2 p q) - (∑ p : Fin m, f (ix2 p q)) * (1 / (m : ℝ))) : ℝ) : EReal) := by
    rw [coe_sum]
    refine Finset.sum_congr rfl fun p _ => ?_
    rw [hmean, hf (ix2 p q), ← EReal.coe_sub, ← EReal.coe_mul]
  unfold varOfMoments varOfDeviations
  rw [hdev, hmean, Ideal.div_coe hm', Ideal.div_coe hm',
    colSum_coe (squares h) (fun i => f i * f i) hsq q, ← EReal.coe_mul, ← EReal.coe_mul, ← EReal.coe_mul,
    ← EReal.coe_sub]
  exact congrArg _ (real_var_forms hm fun p => f (ix2 p q))

/-- At 50000 rows, divided by the word for 50000: the second moment minus the squared mean is the mean squared
    deviation. -/
theorem var_forms_agree (h : Mat 50000 128) (hh : IsReal h) (q : Fin 128) :
    varOfMoments rows h q = varOfDeviations rows h q := by
  have hr : rows = (((50000 : Nat) : ℝ) : EReal) := by rw [rows_eq]; norm_num
  rw [hr]
  exact var_forms_agree_of_rows (by norm_num) h hh q

/-- The whole layer is the same whichever form the variance is taken in: the two layers differ only in the variance
    of the hidden matrix, column by column, and the hidden matrix of real inputs is real. -/
theorem layer_forms_agree (x agg : Mat 50000 128) (w1 : Mat 128 128) (b1 : Row 128) (w2 : Mat 128 128) (b2 : Row 128)
    (gamma beta : Row 128) (hx : IsReal x) (ha : IsReal agg) (hw1 : IsReal w1) (hb1 : IsReal b1) (hw2 : IsReal w2)
    (hb2 : IsReal b2) :
    layer varOfMoments x agg w1 b1 w2 b2 gamma beta = layer varOfDeviations x agg w1 b1 w2 b2 gamma beta := by
  have hv : varOfMoments rows (hidden one x agg w1 b1 w2 b2) = varOfDeviations rows (hidden one x agg w1 b1 w2 b2) :=
    funext fun q => var_forms_agree _ (hidden_isReal x agg w1 b1 w2 b2 hx ha hw1 hb1 hw2 hb2) q
  unfold layer
  rw [hv]

end Cert.GraphNorm

end
-- ==== Proof.PreReal.lean ====
/-
  The precondition says every float input is a real number.

  The precondition is a conjunction, one conjunct per float argument array a: "every entry of |a| is below +infinity",
  written as a reduction by "and" over the entry-by-entry comparison |a| < +infinity, the comparison against the f32
  word 0x7F800000, whose value is the top element of the extended reals. A reduction by "and" from 1 onto a single
  result that came out 1 met a 1 at every entry. At an entry x the comparison reads max x (-x) < top; at x = top the
  left side is top, at x = bottom it is max bottom top = top, so x is neither: x is a real number.
-/
import proofs.«159342_j43061342110476_1_alg».proof.Defs
import proofs.«159342_j43061342110476_1_alg».proof.Proof.Gen.Pre_finite_inputs
import proofs.«159342_j43061342110476_1_alg».proof.Proof.Spec
import Idealize.ShloMosaic.Lib.ReduceAll

noncomputable section

namespace Cert.PreReal

open Idealize.ShloMosaic Idealize.ShloMosaic.ValueIdx Cert.Pre_finite_inputs

/-- The empty shape has one index. -/
instance : Subsingleton S_.Idx := ⟨fun a b => funext fun d => d.elim0⟩

/-- The word 0x7F800000 is +infinity. -/
theorem inf_eq : Ideal.ofBits .f32 0x7F800000#32 = ⊤ := by
  simp [Ideal.ofBits, Ideal.ieee]

/-- An extended real whose absolute value max x (-x) is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the comparison |a| < +infinity being 1 says that entry of a is real. -/
theorem real_of_entry {s : Shape} (a : FVec Ideal s .f32) (hb : S_.BroadcastsInDim s (![] : Fin 0 → Fin s.rank))
    (i : s.Idx)
    (h : cmpf .olt (Host.absf a) (broadcastInDim s ![] hb (constant (F := Ideal) S_ .f32 0x7F800000#32)) i = 1#1) :
    ∃ r : ℝ, a i = (r : EReal) := by
  have h' : BitVec.ofBool (decide (max (a i) (-(a i)) < Ideal.ofBits .f32 0x7F800000#32)) = 1#1 := h
  rw [inf_eq] at h'
  refine real_of_abs_lt_top (a i) ?_
  by_contra hn
  rw [decide_eq_false hn] at h'
  exact absurd h' (by decide)

/-- The reduction by "and" of the comparison |a| < +infinity over all of a being 1 says a is real. -/
theorem isReal_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (h : Host.reduce IntOp.andi
        (cmpf .olt (Host.absf a) (broadcastInDim s ![] hb (constant (F := Ideal) S_ .f32 0x7F800000#32))) init hr hu ix0
      = 1#1) :
    Cert.GraphNorm.IsReal a :=
  fun i => real_of_entry a hb i (Host.reduce_andi_all _ init hr hu ix0 h i)

/-- A conjunction of two one-bit results that is 1 has both 1. -/
theorem both_of_andi (x y : IVec S_ 1) (h : andi x y ix0 = 1#1) : x ix0 = 1#1 ∧ y ix0 = 1#1 :=
  IntOp.andi_eq_one.1 h

/-- Under the precondition the node features, both weights and both biases are real. -/
theorem inputs_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.GraphNorm.IsReal (s := S50000x128)
        (m ((c.tc : Thread Cert.KernelIdeal.nD Cert.KernelIdeal.τ).loc Cert.KernelIdeal.main_arg0))
      ∧ Cert.GraphNorm.IsReal (s := S128x128)
        (m ((c.tc : Thread Cert.KernelIdeal.nD Cert.KernelIdeal.τ).loc Cert.KernelIdeal.main_arg2))
      ∧ Cert.GraphNorm.IsReal (s := S128)
        (m ((c.tc : Thread Cert.KernelIdeal.nD Cert.KernelIdeal.τ).loc Cert.KernelIdeal.main_arg3))
      ∧ Cert.GraphNorm.IsReal (s := S128x128)
        (m ((c.tc : Thread Cert.KernelIdeal.nD Cert.KernelIdeal.τ).loc Cert.KernelIdeal.main_arg4))
      ∧ Cert.GraphNorm.IsReal (s := S128)
        (m ((c.tc : Thread Cert.KernelIdeal.nD Cert.KernelIdeal.τ).loc Cert.KernelIdeal.main_arg5)) := by
  have h0 := congrFun (h c) ix0
  dsimp only [Cert.Pre_finite_inputs.fn, Cert.Pre_finite_inputs.fn_part1] at h0
  obtain ⟨h28, -⟩ := both_of_andi _ _ h0
  obtain ⟨h23, -⟩ := both_of_andi _ _ h28
  obtain ⟨h18, h22⟩ := both_of_andi _ _ h23
  obtain ⟨h13, h17⟩ := both_of_andi _ _ h18
  obtain ⟨h8, h12⟩ := both_of_andi _ _ h13
  obtain ⟨h3, h7⟩ := both_of_andi _ _ h8
  exact ⟨isReal_of_all _ _ _ _ _ h3, isReal_of_all _ _ _ _ _ h7, isReal_of_all _ _ _ _ _ h12,
    isReal_of_all _ _ _ _ _ h17, isReal_of_all _ _ _ _ _ h22⟩

end Cert.PreReal

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.LibScatterRows.lean ====
/-
  Scatters read at an index.

  A scatter walks the update indices in row-major order; each update lands on one element of the operand (or on
  none, when its start index falls outside) and is combined there with what the element holds. When the
  combination is the addition of a commutative monoid the order of the walk does not matter: every element ends
  at its initial value plus the sum of the updates that land on it.
-/
import Idealize.ShloMosaic.PureOps.Ideal
import Idealize.ShloMosaic.Lib.ValueIdx

noncomputable section

namespace Idealize.ShloMosaic.ScatterRows

open Idealize.ShloMosaic Idealize.ShloMosaic.ValueIdx

variable {α : Type} [AddCommMonoid α]

/-- One step of the walk, started from any contents `r`: after the updates of the list `l`, element `i` holds
    `r i` plus the sum, over the list, of the updates landing on `i`. -/
theorem foldl_scatter_apply {s si u : Shape} {w : Nat} (d : ScatterDims s si u) (idx : IVec si w) (upd : u.Idx → α)
    (l : List (Fin u.numel)) (r : s.Idx → α) (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons]
    cases h : d.resultIdx? (u.rowMajor.symm n) idx with
    | none => simp
    | some i0 =>
      by_cases hi : i = i0
      · subst hi
        simp [add_assoc]
      · have hne : ¬ (some i0 = some i) := fun h' => hi (Option.some.inj h').symm
        simp [hi, hne]

/-- A scatter whose combination is the addition of a commutative monoid, read at `i`: the operand's element plus
    the sum of the updates that land on it. -/
theorem scatter_add_apply {s si u : Shape} {w : Nat} (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  obtain rfl : f = (· + ·) := funext fun a => funext fun b => hf a b
  refine (foldl_scatter_apply d idx upd (List.finRange u.numel) x i).trans ?_
  rw [← Fin.sum_univ_def]
  congr 1
  exact Equiv.sum_comp u.rowMajor.symm (fun j => if d.resultIdx? j idx = some i then upd j else 0)

/-! ## Counting: scalar updates scattered into a flat array

`x.at[idx].add(v)` for a flat array `x : [N]`, indices `idx : [E]` (as `[E, 1]`) and updates `v : [E]`: update `e`
lands on element `idx e`, read as a signed integer, when that is inside `[0, N)`, and is dropped otherwise. -/

section Count

/-- Those dimension numbers. -/
abbrev countDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem countDims_start (j : (⟨1, ![E]⟩ : Shape).Idx) (idx : IVec ⟨2, ![E, 1]⟩ w) (a : Fin 1) :
    (countDims N E wf).start j idx a = (idx (ix2 (j 0) 0)).toInt := by
  obtain rfl : a = 0 := Subsingleton.elim _ _
  unfold ScatterDims.start
  rw [dif_pos (show (0 : Fin 1) ∈ (countDims N E wf).scatterDimsToOperandDims from List.mem_singleton.mpr rfl)]
  have hsi : (countDims N E wf).siIdx j ⟨List.idxOf (0 : Fin 1) (countDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem countDims_window (j : (⟨1, ![E]⟩ : Shape).Idx) (a : Fin 1) : (countDims N E wf).window j a = 0 := by
  obtain rfl : a = 0 := Subsingleton.elim _ _
  unfold ScatterDims.window
  rw [dif_neg (fun h => by
    have h' := (List.mem_filter.1 h).2
    simp at h')]

/-- Update `e` lands on element `p` exactly when its index, read signed, is `p`. -/
theorem countDims_resultIdx?_eq_some (j : (⟨1, ![E]⟩ : Shape).Idx) (idx : IVec ⟨2, ![E, 1]⟩ w) (p : Fin N) :
    (countDims N E wf).resultIdx? j idx = some (ix1 p) ↔ (idx (ix2 (j 0) 0)).toInt = (p.val : ℤ) := by
  unfold ScatterDims.resultIdx?
  constructor
  · intro h
    split at h
    · next hc =>
      have hv : ((countDims N E wf).start j idx 0 + (countDims N E wf).window j 0).toNat = p.val :=
        congrArg Fin.val (congrFun (Option.some.inj h) 0)
      have h0 := (hc 0).1
      rw [countDims_start, countDims_window] at hv h0
      omega
    · exact absurd h (by simp)
  · intro h
    have hc : ∀ a, 0 ≤ (countDims N E wf).start j idx a + (countDims N E wf).window j a ∧
        (countDims N E wf).start j idx a + (countDims N E wf).window j a < (⟨1, ![N]⟩ : Shape).size a := by
      intro a
      obtain rfl : a = 0 := Subsingleton.elim _ _
      rw [countDims_start, countDims_window, h]
      have := p.isLt
      constructor
      · omega
      · show (p.val : ℤ) + 0 < (N : ℤ)
        omega
    rw [dif_pos hc]
    congr 1
    funext a
    obtain rfl : a = 0 := Subsingleton.elim _ _
    refine Fin.ext ?_
    show ((countDims N E wf).start j idx 0 + (countDims N E wf).window j 0).toNat = p.val
    rw [countDims_start, countDims_window, h]
    omega

end Count

/-- The flat index set as its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type} [AddCommMonoid M] {n : Nat} (f : (⟨1, ![n]⟩ : Shape).Idx → M) :
    ∑ j, f j = ∑ e : Fin n, f (ix1 e) :=
  (Equiv.sum_comp (idxEquiv1 (n := n)).symm f).symm

/-- THE COUNT READ AT `p`: the operand's element plus the sum of the updates whose index, read signed, is `p`. -/
theorem count_scatter_apply {N E w : Nat} (wf : ScatterDims.WF ⟨1, ![N]⟩ ⟨2, ![E, 1]⟩ ⟨1, ![E]⟩ [] [0] [0] 1)
    (f : α → α → α) (hf : ∀ a b, f a b = a + b) (x : (⟨1, ![N]⟩ : Shape).Idx → α) (idx : IVec ⟨2, ![E, 1]⟩ w)
    (upd : (⟨1, ![E]⟩ : Shape).Idx → α) (p : Fin N) :
    Host.scatter (countDims N E wf) f x idx upd (ix1 p)
      = x (ix1 p) + ∑ e : Fin E, if (idx (ix2 e 0)).toInt = (p.val : ℤ) then upd (ix1 e) else 0 := by
  rw [scatter_add_apply _ f hf, sum_idx1]
  congr 1
  refine Finset.sum_congr rfl fun e _ => ?_
  simp only [countDims_resultIdx?_eq_some]
  rfl

/-! ## Rows: row updates scattered into a matrix

`x.at[idx].add(v)` for a matrix `x : [N, C]`, indices `idx : [E]` (as `[E, 1]`) and updates `v : [E, C]`: row `e`
of the updates lands on row `idx e`, read as a signed integer, when that is inside `[0, N)`, and is dropped
otherwise; columns go to columns. -/

section Rows

/-- Those dimension numbers. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowsDims_start0 (j : (⟨2, ![E, C]⟩ : Shape).Idx) (idx : IVec ⟨2, ![E, 1]⟩ w) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsDims_start1 (j : (⟨2, ![E, C]⟩ : Shape).Idx) (idx : IVec ⟨2, ![E, 1]⟩ w) :
    (rowsDims N E C wf).start j idx 1 = 0 := by
  unfold ScatterDims.start
  rw [dif_neg (fun h => by simp at h)]

theorem rowsDims_window0 (j : (⟨2, ![E, C]⟩ : Shape).Idx) : (rowsDims N E C wf).window j 0 = 0 := by
  unfold ScatterDims.window
  rw [dif_neg (fun h => by
    have h' := (List.mem_filter.1 h).2
    simp at h')]

theorem rowsDims_window1 (j : (⟨2, ![E, C]⟩ : Shape).Idx) : (rowsDims N E C wf).window j 1 = (j 1).val := by
  unfold ScatterDims.window
  rw [dif_pos (show (1 : Fin 2) ∈ (rowsDims N E C wf).sKept from
    List.mem_filter.2 ⟨List.mem_finRange _, by simp⟩)]
  rfl

/-- Entry `(e, c)` of the updates lands on entry `(p, q)` exactly when row `e`'s index, read signed, is `p` and
    `c = q`. -/
theorem rowsDims_resultIdx?_eq_some (j : (⟨2, ![E, C]⟩ : Shape).Idx) (idx : IVec ⟨2, ![E, 1]⟩ w) (p : Fin N) (q : Fin C) :
    (rowsDims N E C wf).resultIdx? j idx = some (ix2 p q)
      ↔ (idx (ix2 (j 0) 0)).toInt = (p.val : ℤ) ∧ (j 1).val = q.val := by
  unfold ScatterDims.resultIdx?
  constructor
  · intro h
    split at h
    · next hc =>
      have hv0 : ((rowsDims N E C wf).start j idx 0 + (rowsDims N E C wf).window j 0).toNat = p.val :=
        congrArg Fin.val (congrFun (Option.some.inj h) 0)
      have hv1 : ((rowsDims N E C wf).start j idx 1 + (rowsDims N E C wf).window j 1).toNat = q.val :=
        congrArg Fin.val (congrFun (Option.some.inj h) 1)
      have h0 := (hc 0).1
      rw [rowsDims_start0, rowsDims_window0] at hv0 h0
      rw [rowsDims_start1, rowsDims_window1] at hv1
      constructor <;> omega
    · exact absurd h (by simp)
  · rintro ⟨h, hq⟩
    have hc : ∀ a, 0 ≤ (rowsDims N E C wf).start j idx a + (rowsDims N E C wf).window j a ∧
        (rowsDims N E C wf).start j idx a + (rowsDims N E C wf).window j a < (⟨2, ![N, C]⟩ : Shape).size a := by
      intro a
      match a with
      | ⟨0, _⟩ =>
        show 0 ≤ (rowsDims N E C wf).start j idx 0 + (rowsDims N E C wf).window j 0 ∧
          (rowsDims N E C wf).start j idx 0 + (rowsDims N E C wf).window j 0 < (N : ℤ)
        rw [rowsDims_start0, rowsDims_window0, h]
        have := p.isLt
        constructor <;> omega
      | ⟨1, _⟩ =>
        show 0 ≤ (rowsDims N E C wf).start j idx 1 + (rowsDims N E C wf).window j 1 ∧
          (rowsDims N E C wf).start j idx 1 + (rowsDims N E C wf).window j 1 < (C : ℤ)
        rw [rowsDims_start1, rowsDims_window1, hq]
        have := q.isLt
        constructor <;> omega
    rw [dif_pos hc]
    congr 1
    funext a
    refine Fin.ext ?_
    match a with
    | ⟨0, _⟩ =>
      show ((rowsDims N E C wf).start j idx 0 + (rowsDims N E C wf).window j 0).toNat = p.val
      rw [rowsDims_start0, rowsDims_window0, h]
      omega
    | ⟨1, _⟩ =>
      show ((rowsDims N E C wf).start j idx 1 + (rowsDims N E C wf).window j 1).toNat = q.val
      rw [rowsDims_start1, rowsDims_window1, hq]
      omega

/-- THE ACCUMULATED ROWS READ AT `(p, q)`, on the extended reals: the operand's entry plus the sum, over the rows
    `e` of the updates whose index is `p`, of the update's entry `(e, q)`. -/
theorem rows_scatterAdd_apply (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowsDims N E C wf) x idx upd (ix2 p q)
      = x (ix2 p q) + ∑ e : Fin E, if (idx (ix2 e 0)).toInt = (p.val : ℤ) then upd (ix2 e q) else 0 := by
  unfold Ideal.hostScatterAdd
  congr 1
  rw [Finset.sum_filter, sum_idx2]
  refine Finset.sum_congr rfl fun e _ => ?_
  simp only [rowsDims_resultIdx?_eq_some]
  by_cases he : (idx (ix2 e 0)).toInt = (p.val : ℤ)
  · have : ∀ c : Fin C, ((idx (ix2 ((ix2 e c : (⟨2, ![E, C]⟩ : Shape).Idx) 0) 0)).toInt = (p.val : ℤ)
        ∧ ((ix2 e c : (⟨2, ![E, C]⟩ : Shape).Idx) 1).val = q.val) ↔ c = q := fun c =>
      ⟨fun h => Fin.ext h.2, fun h => ⟨he, congrArg Fin.val h⟩⟩
    simp only [this, Finset.sum_ite_eq', Finset.mem_univ, if_true, he]
  · have : ∀ c : Fin C, ¬ ((idx (ix2 ((ix2 e c : (⟨2, ![E, C]⟩ : Shape).Idx) 0) 0)).toInt = (p.val : ℤ)
        ∧ ((ix2 e c : (⟨2, ![E, C]⟩ : Shape).Idx) 1).val = q.val) := fun c h => he h.1
    simp only [this, if_false, Finset.sum_const_zero, he]

end Rows

end Idealize.ShloMosaic.ScatterRows

end
-- ==== Proof.LibScatterCols.lean ====
/-
  A scatter of columns, read at an index.

  `x.at[:, idx].add(v)` for a matrix `x : [C, N]`, indices `idx : [E]` (as `[E, 1]`) and updates `v : [C, E]`:
  column `e` of the updates lands on column `idx e` of the operand, read as a signed integer, when that is inside
  `[0, N)`, and is dropped otherwise; rows go to rows. This is the transposed layout of the row scatter
  (`[E, C]` rows into `[N, C]`): a per-row `segment_sum` mapped over the `C` rows of a `[C, E]` array.
  On the extended reals every entry ends at its initial value plus the sum of the updates landing on it.
-/
import Idealize.ShloMosaic.PureOps.Ideal
import Idealize.ShloMosaic.Lib.ValueIdx

noncomputable section

namespace Idealize.ShloMosaic.ScatterCols

open Idealize.ShloMosaic Idealize.ShloMosaic.ValueIdx

/-- The dimension numbers of the column scatter: the updates' axis 0 is the window (it goes to the operand's axis 0),
    the operand's axis 1 is the one the indices address. -/
abbrev colsDims (N E C : Nat) (wf : ScatterDims.WF ⟨2, ![C, N]⟩ ⟨2, ![E, 1]⟩ ⟨2, ![C, E]⟩ [0] [1] [1] 1) :
    ScatterDims ⟨2, ![C, N]⟩ ⟨2, ![E, 1]⟩ ⟨2, ![C, E]⟩ where
  updateWindowDims := [0]
  insertedWindowDims := [1]
  scatterDimsToOperandDims := [1]
  indexVectorDim := 1
  wf := wf

variable {N E C w : Nat} (wf : ScatterDims.WF ⟨2, ![C, N]⟩ ⟨2, ![E, 1]⟩ ⟨2, ![C, E]⟩ [0] [1] [1] 1)

/-- On the addressed axis the window starts at the index of the update's column, read signed. -/
theorem colsDims_start1 (j : (⟨2, ![C, E]⟩ : Shape).Idx) (idx : IVec ⟨2, ![E, 1]⟩ w) :
    (colsDims N E C wf).start j idx 1 = (idx (ix2 (j 1) 0)).toInt := by
  unfold ScatterDims.start
  rw [dif_pos (show (1 : Fin 2) ∈ (colsDims N E C wf).scatterDimsToOperandDims from List.mem_singleton.mpr rfl)]
  have hsi : (colsDims N E C wf).siIdx j ⟨List.idxOf (1 : Fin 2) (colsDims N E C wf).scatterDimsToOperandDims,
      List.idxOf_lt_length_iff.2 (List.mem_singleton.mpr rfl)⟩ = ix2 (j 1) 0 := by
    funext b; refine Fin.ext ?_
    match b with
    | ⟨0, _⟩ => rfl
    | ⟨1, _⟩ => rfl
  rw [hsi]
  rfl

/-- On the row axis the window starts at zero. -/
theorem colsDims_start0 (j : (⟨2, ![C, E]⟩ : Shape).Idx) (idx : IVec ⟨2, ![E, 1]⟩ w) :
    (colsDims N E C wf).start j idx 0 = 0 := by
  unfold ScatterDims.start
  rw [dif_neg (fun h => by simp at h)]

/-- The window coordinate on the row axis is the update's row. -/
theorem colsDims_window0 (j : (⟨2, ![C, E]⟩ : Shape).Idx) : (colsDims N E C wf).window j 0 = (j 0).val := by
  unfold ScatterDims.window
  rw [dif_pos (show (0 : Fin 2) ∈ (colsDims N E C wf).sKept from
    List.mem_filter.2 ⟨List.mem_finRange _, by simp⟩)]
  rfl

/-- The addressed axis is inserted: no window coordinate there. -/
theorem colsDims_window1 (j : (⟨2, ![C, E]⟩ : Shape).Idx) : (colsDims N E C wf).window j 1 = 0 := by
  unfold ScatterDims.window
  rw [dif_neg (fun h => by
    have h' := (List.mem_filter.1 h).2
    simp at h')]

/-- Entry `(c, e)` of the updates lands on entry `(q, p)` exactly when `c = q` and column `e`'s index, read signed,
    is `p`. -/
theorem colsDims_resultIdx?_eq_some (j : (⟨2, ![C, E]⟩ : Shape).Idx) (idx : IVec ⟨2, ![E, 1]⟩ w) (q : Fin C) (p : Fin N) :
    (colsDims N E C wf).resultIdx? j idx = some (ix2 q p)
      ↔ (j 0).val = q.val ∧ (idx (ix2 (j 1) 0)).toInt = (p.val : ℤ) := by
  unfold ScatterDims.resultIdx?
  constructor
  · intro h
    split at h
    · next hc =>
      have hv0 : ((colsDims N E C wf).start j idx 0 + (colsDims N E C wf).window j 0).toNat = q.val :=
        congrArg Fin.val (congrFun (Option.some.inj h) 0)
      have hv1 : ((colsDims N E C wf).start j idx 1 + (colsDims N E C wf).window j 1).toNat = p.val :=
        congrArg Fin.val (congrFun (Option.some.inj h) 1)
      have h1 := (hc 1).1
      rw [colsDims_start0, colsDims_window0] at hv0
      rw [colsDims_start1, colsDims_window1] at hv1 h1
      constructor <;> omega
    · exact absurd h (by simp)
  · rintro ⟨hq, h⟩
    have hc : ∀ a, 0 ≤ (colsDims N E C wf).start j idx a + (colsDims N E C wf).window j a ∧
        (colsDims N E C wf).start j idx a + (colsDims N E C wf).window j a < (⟨2, ![C, N]⟩ : Shape).size a := by
      intro a
      match a with
      | ⟨0, _⟩ =>
        show 0 ≤ (colsDims N E C wf).start j idx 0 + (colsDims N E C wf).window j 0 ∧
          (colsDims N E C wf).start j idx 0 + (colsDims N E C wf).window j 0 < (C : ℤ)
        rw [colsDims_start0, colsDims_window0, hq]
        have := q.isLt
        constructor <;> omega
      | ⟨1, _⟩ =>
        show 0 ≤ (colsDims N E C wf).start j idx 1 + (colsDims N E C wf).window j 1 ∧
          (colsDims N E C wf).start j idx 1 + (colsDims N E C wf).window j 1 < (N : ℤ)
        rw [colsDims_start1, colsDims_window1, h]
        have := p.isLt
        constructor <;> omega
    rw [dif_pos hc]
    congr 1
    funext a
    refine Fin.ext ?_
    match a with
    | ⟨0, _⟩ =>
      show ((colsDims N E C wf).start j idx 0 + (colsDims N E C wf).window j 0).toNat = q.val
      rw [colsDims_start0, colsDims_window0, hq]
      omega
    | ⟨1, _⟩ =>
      show ((colsDims N E C wf).start j idx 1 + (colsDims N E C wf).window j 1).toNat = p.val
      rw [colsDims_start1, colsDims_window1, h]
      omega

/-- THE ACCUMULATED COLUMNS READ AT `(q, p)`, on the extended reals: the operand's entry plus the sum, over the
    columns `e` of the updates whose index is `p`, of the update's entry `(q, e)`. -/
theorem cols_scatterAdd_apply (x : (⟨2, ![C, N]⟩ : Shape).Idx → EReal) (idx : IVec ⟨2, ![E, 1]⟩ w)
    (upd : (⟨2, ![C, E]⟩ : Shape).Idx → EReal) (q : Fin C) (p : Fin N) :
    Ideal.hostScatterAdd (colsDims N E C wf) x idx upd (ix2 q p)
      = x (ix2 q p) + ∑ e : Fin E, if (idx (ix2 e 0)).toInt = (p.val : ℤ) then upd (ix2 q e) else 0 := by
  unfold Ideal.hostScatterAdd
  congr 1
  rw [Finset.sum_filter, sum_idx2, Finset.sum_comm]
  refine Finset.sum_congr rfl fun e _ => ?_
  simp only [colsDims_resultIdx?_eq_some]
  by_cases he : (idx (ix2 e 0)).toInt = (p.val : ℤ)
  · have : ∀ c : Fin C, (((ix2 c e : (⟨2, ![C, E]⟩ : Shape).Idx) 0).val = q.val
        ∧ (idx (ix2 ((ix2 c e : (⟨2, ![C, E]⟩ : Shape).Idx) 1) 0)).toInt = (p.val : ℤ)) ↔ c = q := fun c =>
      ⟨fun h => Fin.ext h.1, fun h => ⟨congrArg Fin.val h, he⟩⟩
    simp only [this, Finset.sum_ite_eq', Finset.mem_univ, if_true, he]
  · have : ∀ c : Fin C, ¬ (((ix2 c e : (⟨2, ![C, E]⟩ : Shape).Idx) 0).val = q.val
        ∧ (idx (ix2 ((ix2 c e : (⟨2, ![C, E]⟩ : Shape).Idx) 1) 0)).toInt = (p.val : ℤ)) := fun c h => he h.2
    simp only [this, if_false, Finset.sum_const_zero, he]

end Idealize.ShloMosaic.ScatterCols

end
-- ==== Proof.LibScatterHost.lean ====
/-
  The host's accumulating scatter, read at an index, for the two layouts of a segment sum.

  `Host.scatterAdd` read at the extended reals is the exact sum (`Ideal.hostScatterAdd`); these two lemmas state the
  row form (`[E, C]` rows into `[N, C]`) and the column form (`[C, E]` columns into `[C, N]`) directly of the host
  operation, for any extents: the two layouts of one segment sum, read at transposed entries, are the same sum.
-/
import proofs.«159342_j43061342110476_1_alg».proof.Proof.LibScatterRows
import proofs.«159342_j43061342110476_1_alg».proof.Proof.LibScatterCols

noncomputable section

namespace Idealize.ShloMosaic.ScatterHost

open Idealize.ShloMosaic Idealize.ShloMosaic.ValueIdx

variable {N E C w : Nat}

/-- The host's row scatter at `(p, q)`: the operand's entry plus the sum, over the rows `e` of the updates whose index
    is `p`, of the update's entry `(e, q)`. -/
theorem rows_apply (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (p : Fin N) (q : Fin C) :
    Host.scatterAdd (ScatterRows.rowsDims N E C wf) x idx upd (ix2 p q)
      = x (ix2 p q) + ∑ e : Fin E, if (idx (ix2 e 0)).toInt = (p.val : ℤ) then upd (ix2 e q) else 0 :=
  ScatterRows.rows_scatterAdd_apply wf x idx upd p q

/-- The host's column scatter at `(q, p)`: the operand's entry plus the sum, over the columns `e` of the updates whose
    index is `p`, of the update's entry `(q, e)`. -/
theorem cols_apply (wf : ScatterDims.WF ⟨2, ![C, N]⟩ ⟨2, ![E, 1]⟩ ⟨2, ![C, E]⟩ [0] [1] [1] 1)
    (x : FVec Ideal ⟨2, ![C, N]⟩ .f32) (idx : IVec ⟨2, ![E, 1]⟩ w) (upd : FVec Ideal ⟨2, ![C, E]⟩ .f32) (q : Fin C) (p : Fin N) :
    Host.scatterAdd (ScatterCols.colsDims N E C wf) x idx upd (ix2 q p)
      = x (ix2 q p) + ∑ e : Fin E, if (idx (ix2 e 0)).toInt = (p.val : ℤ) then upd (ix2 q e) else 0 :=
  ScatterCols.cols_scatterAdd_apply wf x idx upd q p

end Idealize.ShloMosaic.ScatterHost

end
-- ==== Proof.NeighbourReal.lean ====
/-
  The neighbour sums of real node features are real, whatever the two index arrays hold.

  The neighbour sums are an accumulating scatter, into a matrix of zeros, of the gathered rows of the node features x.
  Row e of the gathered matrix is a row of x (the one its index word names, read signed and clamped into range), so
  every gathered entry is real. The scatter read at (p, q) is the operand's entry there, the value 0 of the all-zero
  word, plus the sum over the rows e whose destination word is p of the gathered entry (e, q): a real plus a finite
  sum of reals (a row that does not land at p contributes the real 0). Proved for any extents and then read at the
  program's own records, which are literally the row forms.
-/
import proofs.«159342_j43061342110476_1_alg».proof.Proof.Gen.KernelIdeal
import proofs.«159342_j43061342110476_1_alg».proof.Proof.Spec
import proofs.«159342_j43061342110476_1_alg».proof.Proof.Consts
import proofs.«159342_j43061342110476_1_alg».proof.Proof.LibGatherRows
import proofs.«159342_j43061342110476_1_alg».proof.Proof.LibScatterHost
import proofs.«159342_j43061342110476_1_alg».proof.Proof.LibBroadcastInDim

noncomputable section

namespace Cert.GraphNorm

open Idealize.ShloMosaic Idealize.ShloMosaic.ValueIdx

/-- For any extents: rows of a real matrix gathered at any indices and add-scattered at any indices into zeros give a
    real matrix. -/
theorem scatterGather_isReal {N E C w : Nat} (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hb : (⟨0, ![]⟩ : Shape).BroadcastsInDim ⟨2, ![N, C]⟩ (![] : Fin 0 → Fin 2))
    (x : FVec Ideal ⟨2, ![N, C]⟩ .f32) (hx : IsReal x) (si di : IVec ⟨2, ![E, 1]⟩ w) :
    IsReal (Host.scatterAdd (F := Ideal) (ScatterRows.rowsDims N E C swf)
      (broadcastInDim ⟨2, ![N, C]⟩ ![] hb (constant (F := Ideal) ⟨0, ![]⟩ .f32 0x00000000#32)) di
      (Host.gather (GatherRows.rowsDims N E C gwf) x si)) := by
  choose f hf using hx
  intro i
  obtain ⟨p, q, rfl⟩ : ∃ (p : Fin N) (q : Fin C), i = ix2 p q := ⟨i 0, i 1, eq_ix2 i⟩
  refine ⟨0 + ∑ e : Fin E, if (di (ix2 e 0)).toInt = (p.val : ℤ)
    then f (ix2 (GatherRows.clampRow N hN (si (ix2 e 0))) q) else 0, ?_⟩
  rw [ScatterHost.rows_apply, Cert.Lib.BroadcastInDim.scalar_apply, EReal.coe_add, coe_sum]
  refine congrArg₂ (· + ·) zero_eq (Finset.sum_congr rfl fun e _ => ?_)
  rw [GatherRows.rows_gather_apply hN, hf]
  split_ifs
  · rfl
  · exact EReal.coe_zero.symm

/-- The neighbour sums of the program are real when the node features are. -/
theorem neighbourSum_isReal (x : FVec Ideal Cert.KernelIdeal.S50000x128 .f32) (hx : IsReal x)
    (si di : (⟨Cert.KernelIdeal.S600000x1, .i32⟩ : BufTy).Contents (Elt Ideal)) :
    IsReal (Host.scatterAdd (F := Ideal) Cert.KernelIdeal.scatter_S50000x128_S600000x1_S600000x128_1_0_0_1
      (broadcastInDim Cert.KernelIdeal.S50000x128 ![] Cert.KernelIdeal.Gen.bcast_S_S50000x128
        (constant (F := Ideal) Cert.KernelIdeal.S_ .f32 0x00000000#32))
      di
      (Host.gather Cert.KernelIdeal.gather_S50000x128_S600000x1_S600000x128_1_0_n_n_0_1_1128 x si)) := by
  have hs : Cert.KernelIdeal.scatter_S50000x128_S600000x1_S600000x128_1_0_0_1
      = ScatterRows.rowsDims 50000 600000 128
          Cert.KernelIdeal.Gen.scatter_S50000x128_S600000x1_S600000x128_1_0_0_1_wf := rfl
  have hg : Cert.KernelIdeal.gather_S50000x128_S600000x1_S600000x128_1_0_n_n_0_1_1128
      = GatherRows.rowsDims 50000 600000 128
          Cert.KernelIdeal.Gen.gather_S50000x128_S600000x1_S600000x128_1_0_n_n_0_1_1128_wf := rfl
  rw [hs, hg]
  exact scatterGather_isReal (by norm_num) _ _ Cert.KernelIdeal.Gen.bcast_S_S50000x128 x hx si di

end Cert.GraphNorm

end
-- ==== Proof.lean ====
/-
  Every claim of the certificate.

  The kernel program and the reference compute one graph layer with batch normalization:
  out = x + max((h - mean) * rsqrt(var + eps) * gamma + beta, 0), where h is two dense layers (a rectifier between
  them) of 1.0 * x + the sum of each node's in-neighbours' features, and mean, var are taken over the 50000 nodes,
  column by column. On the extended reals the two programs differ in ONE place: the kernel takes the variance as the
  second moment minus the squared mean, (sum of h^2)/50000 - mean * mean, the reference as the mean squared deviation,
  (sum of (h - mean)^2)/50000. These agree when every entry of h is a real number — the squares expand and the cross
  term 2 * mean * (sum of h) cancels against 50000 * mean^2 — and h is real because the precondition makes every float
  input real: sums, products and maxima with 0 of reals are real, and a neighbour sum is a finite sum of entries of x.
  Everything else is the same expression on both sides: the tiles' products into zero accumulators against one whole
  product, the 25 running sums against one whole column sum (addition on the extended reals is commutative and
  associative), casts to a narrower float format (the identity), the same three literal words.

  The three programs run, terminate and keep their arguments (the frames); the idealization rewrote nothing
  (preserves is trivial).
-/
import proofs.«159342_j43061342110476_1_alg».proof.Defs
import proofs.«159342_j43061342110476_1_alg».proof.Proof.Gen.Kernel
import proofs.«159342_j43061342110476_1_alg».proof.Proof.Gen.Kernel.Frame
import proofs.«159342_j43061342110476_1_alg».proof.Proof.Gen.KernelIdeal
import proofs.«159342_j43061342110476_1_alg».proof.Proof.Gen.KernelIdeal.Frame
import proofs.«159342_j43061342110476_1_alg».proof.Proof.Gen.ReferenceIdeal
import proofs.«159342_j43061342110476_1_alg».proof.Proof.Gen.Pre_finite_inputs
import proofs.«159342_j43061342110476_1_alg».proof.Proof.KernelValue
import proofs.«159342_j43061342110476_1_alg».proof.Proof.RefValue
import proofs.«159342_j43061342110476_1_alg».proof.Proof.Moments
import proofs.«159342_j43061342110476_1_alg».proof.Proof.PreReal
import proofs.«159342_j43061342110476_1_alg».proof.Proof.NeighbourReal
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its valued run with the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

attribute [local irreducible] Host.gather Host.scatterAdd in
/-- The two programs compute the neighbour sums by the same host operations. -/
theorem neighbourSum_same (x : FVec Ideal Cert.KernelIdeal.S50000x128 .f32) (ei : IVec Cert.KernelIdeal.S2x600000 32) :
    Cert.ReferenceIdeal.RefValue.neighbourSum x ei = Cert.KernelIdeal.KValue.neighbourSum x ei := rfl

/-- The neighbour sums of real features are real. -/
theorem neighbourSum_real (x : FVec Ideal Cert.KernelIdeal.S50000x128 .f32) (hx : Cert.GraphNorm.IsReal x)
    (ei : IVec Cert.KernelIdeal.S2x600000 32) : Cert.GraphNorm.IsReal (Cert.KernelIdeal.KValue.neighbourSum x ei) := by
  unfold Cert.KernelIdeal.KValue.neighbourSum
  exact Cert.GraphNorm.neighbourSum_isReal x hx _ _

/-- On the extended reals the two programs end with equal results: both are the layer, the kernel's with the variance
    from the moments, the reference's with the variance from the deviations, of arguments that agree; the two forms
    agree because the precondition makes the hidden matrix real. -/
theorem algebraic : Cert.algebraic_KernelIdeal_ReferenceIdeal := by
  intro m ρ m' ρ' hpre hagree
  refine ⟨fun c => Cert.GraphNorm.layer Cert.GraphNorm.varOfMoments (m ((c.tc : Thread Cert.KernelIdeal.nD Cert.KernelIdeal.τ).loc Cert.KernelIdeal.main_arg0))
      (Cert.KernelIdeal.KValue.neighbourSum (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7⟩ := hagree c
  dsimp only
  rw [a0, a1, a2, a3, a4, a5, a6, a7, neighbourSum_same]
  obtain ⟨hx, hw1, hb1, hw2, hb2⟩ := Cert.PreReal.inputs_real m hpre c
  exact (Cert.GraphNorm.layer_forms_agree _ _ _ _ _ _ _ _ hx (neighbourSum_real _ hx _) hw1 hb1 hw2 hb2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
